-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x8 .f32) (main_arg3 : FVec F S8 .f32) (main_arg4 : FVec F S8x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x8 .f32 := Host.absf main_arg2
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S5000x512 : Shape := ⟨2, ![5000, 512]⟩
abbrev S5000x8 : Shape := ⟨2, ![5000, 8]⟩
abbrev S3300000x8 : Shape := ⟨2, ![3300000, 8]⟩
abbrev S1x8 : Shape := ⟨2, ![1, 8]⟩
abbrev S100000x16 : Shape := ⟨2, ![100000, 16]⟩
abbrev S10000x8 : Shape := ⟨2, ![10000, 8]⟩
abbrev S10000x16 : Shape := ⟨2, ![10000, 16]⟩
abbrev S3300000x16 : Shape := ⟨2, ![3300000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x8, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x8, .f32⟩
  | .hbm, ⟨59, _⟩ => ⟨S3300000x1, .f32⟩
  | .hbm, ⟨60, _⟩ => ⟨S3300000x8, .f32⟩
  | .hbm, ⟨61, _⟩ => ⟨S3300000x8, .f32⟩
  | .hbm, ⟨62, _⟩ => ⟨S_, .f32⟩
  | .hbm, ⟨63, _⟩ => ⟨S100000x8, .f32⟩
  | .hbm, ⟨64, _⟩ => ⟨S3300000x1, .i32⟩
  | .hbm, ⟨65, _⟩ => ⟨S100000x8, .f32⟩
  | .hbm, ⟨66, _⟩ => ⟨S1x8, .f32⟩
  | .hbm, ⟨67, _⟩ => ⟨S100000x8, .f32⟩
  | .hbm, ⟨68, _⟩ => ⟨S100000x8, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x8, .f32⟩
  | .local _ .vmem, ⟨3, _⟩ => ⟨S5000x8, .f32⟩
  | .local _ .vmem, ⟨4, _⟩ => ⟨S5000x8, .f32⟩
  | .local _ .vmem, ⟨5, _⟩ => ⟨S10000x8, .f32⟩
  | .local _ .vmem, ⟨6, _⟩ => ⟨S10000x8, .f32⟩
  | .local _ .vmem, ⟨7, _⟩ => ⟨S8x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S5000x8_S5000x8_0_0 : ∀ a, (![0, 0] : Fin 2 → Nat) a + S5000x8.size a ≤ S5000x8.size a
  h_S5000x8 : 0 < S5000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S8x16_S8x16_0_0 : ∀ a, (![0, 0] : Fin 2 → Nat) a + S8x16.size a ≤ S8x16.size a
  h_S8x16 : 0 < S8x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x8_S5000x8_1_0_0_1_n_n_wf : DotDims.WF S5000x512 S512x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S10000x8_S8x16_S10000x16_1_0_0_1_n_n_wf : DotDims.WF S10000x8 S8x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .f32 = 32 ∨ (Rect.block (s := S100000x8) S5000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S100000x8.size a
  hwx1_0 : ∀ i : grid1.Coords, EltTy.bits .f32 = 32 ∨ (Rect.block (s := S100000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x8_S5000x8_1_0_0_1_n_n : DotDims S5000x512 S512x8 S5000x8 where
  lhsContracting := [1]
  rhsContracting := [0]
  lhsNonContracting := [0]
  rhsNonContracting := [1]
  lhsBatch := []
  rhsBatch := []
  wf := dot_S5000x512_S512x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x8, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x8, .f32⟩
  | .hbm, ⟨59, _⟩ => ⟨S3300000x1, .f32⟩
  | .hbm, ⟨60, _⟩ => ⟨S3300000x8, .f32⟩
  | .hbm, ⟨61, _⟩ => ⟨S3300000x8, .f32⟩
  | .hbm, ⟨62, _⟩ => ⟨S_, .f32⟩
  | .hbm, ⟨63, _⟩ => ⟨S100000x8, .f32⟩
  | .hbm, ⟨64, _⟩ => ⟨S3300000x1, .i32⟩
  | .hbm, ⟨65, _⟩ => ⟨S100000x8, .f32⟩
  | .hbm, ⟨66, _⟩ => ⟨S1x8, .f32⟩
  | .hbm, ⟨67, _⟩ => ⟨S100000x8, .f32⟩
  | .hbm, ⟨68, _⟩ => ⟨S100000x8, .f32⟩
  | .hbm, ⟨69, _⟩ => ⟨S_, .f32⟩
  | .hbm, ⟨70, _⟩ => ⟨S100000x8, .f32⟩
  | .hbm, ⟨71, _⟩ => ⟨S100000x8, .i1⟩
  | .hbm, ⟨72, _⟩ => ⟨S_, .f32⟩
  | .hbm, ⟨73, _⟩ => ⟨S100000x8, .f32⟩
  | .hbm, ⟨74, _⟩ => ⟨S100000x8, .i1⟩
  | .hbm, ⟨75, _⟩ => ⟨S_, .f32⟩
  | .hbm, ⟨76, _⟩ => ⟨S_, .f32⟩
  | .hbm, ⟨77, _⟩ => ⟨S100000x8, .f32⟩
  | .hbm, ⟨78, _⟩ => ⟨S100000x8, .f32⟩
  | .hbm, ⟨79, _⟩ => ⟨S100000x8, .f32⟩
  | .hbm, ⟨80, _⟩ => ⟨S_, .f32⟩
  | .hbm, ⟨81, _⟩ => ⟨S100000x8, .f32⟩
  | .hbm, ⟨82, _⟩ => ⟨S100000x8, .f32⟩
  | .hbm, ⟨83, _⟩ => ⟨S100000x8, .f32⟩
  | .hbm, ⟨84, _⟩ => ⟨S100000x16, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000x16, .f32⟩
  | .hbm, ⟨94, _⟩ => ⟨S3300000x1, .f32⟩
  | .hbm, ⟨95, _⟩ => ⟨S3300000x16, .f32⟩
  | .hbm, ⟨96, _⟩ => ⟨S3300000x16, .f32⟩
  | .hbm, ⟨97, _⟩ => ⟨S_, .f32⟩
  | .hbm, ⟨98, _⟩ => ⟨S100000x16, .f32⟩
  | .hbm, ⟨99, _⟩ => ⟨S3300000x1, .i32⟩
  | .hbm, ⟨100, _⟩ => ⟨S100000x16, .f32⟩
  | .hbm, ⟨101, _⟩ => ⟨S1x16, .f32⟩
  | .hbm, ⟨102, _⟩ => ⟨S100000x16, .f32⟩
  | .hbm, ⟨103, _⟩ => ⟨S100000x16, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x16, .f32⟩
  | .hbm, ⟨111, _⟩ => ⟨S100000x16, .f32⟩
  | .hbm, ⟨112, _⟩ => ⟨S100000x16, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x16, .f32⟩
  | .hbm, ⟨118, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v67 : Ref sig .tc := ⟨.hbm, 118, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x8_S100000x8_1_0_0_1_n_n_wf : DotDims.WF S100000x512 S512x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x16_S100000x16_1_0_0_1_n_n_wf : DotDims.WF S100000x8 S8x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KRun.lean ====
/-
  The idealized kernel's run with its result named. Every weakly fair execution of the program terminates, the six
  argument arrays end as launched, and the result buffer ends at the contents the last region's write-backs leave,
  `W8`: the fold of the buffer contents through the host stretches and the three regions, from the launch memory.
-/
import proofs.«125811_j66511863546567_1_alg».proof.Proof.Gen.KernelIdeal.Frame

set_option maxRecDepth 16384

noncomputable section

namespace Cert.KernelIdeal.ValuedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions among their host stretches, read at the result buffer and at the arguments: the last
    thread state holds every unscoped buffer at `W8`, and the result buffer is one of them. -/
theorem run : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ValuedRun

end
-- ==== Proof.RefRun.lean ====
/-
  The reference program's run. Its `@main` makes no kernel launch: with the bodies of the functions it calls put at
  their call sites it is a straight line of 113 host operations, one per buffer. They are listed here in program order,
  whole and in nine consecutive stretches (the graph's normalisation in three; the first dense product; the first
  aggregation; the activation; the second dense product; the second aggregation; the row-wise log-softmax), and the run
  is read back: every weakly fair execution terminates with each buffer at the fold of the operations over the launch
  contents.
-/
import proofs.«125811_j66511863546567_1_alg».proof.ReferenceIdeal
import proofs.«125811_j66511863546567_1_alg».proof.Proof.Gen.ReferenceIdeal
import Idealize.ShloMosaic.Lib.StableHlo.Run

noncomputable section

namespace Cert.ReferenceIdeal.HandRun

open Cert.ReferenceIdeal Cert.ReferenceIdeal.Facts₀ Cert.ReferenceIdeal.Facts
open Idealize.ShloMosaic Idealize.ShloMosaic.TcCoe Idealize.SL.Sem

variable {F : FTy → Type} [FloatOps F]

/-- The edge lists with the self loops appended, the in-degrees, the comparison with zero and the inverse square roots: the 21 operations up to `%cst_3`. -/
abbrev opsPreA : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]

/-- The select that puts zero where a degree is not positive (three operations, `%16`). -/
abbrev opsPreB : List (HloOp τ sig (Elt F)) :=
  [ StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v15 : StableHlo.TRef sig ⟨S100000, .f32⟩) main_call0.v1 main_call0.v2 select ]

/-- The inverse square roots gathered at the sources and at the targets, and their product, the per-edge weight (19 operations, up to `%31`). -/
abbrev opsPreC : List (HloOp τ sig (Elt F)) :=
  [ StableHlo.nullary main_c (constantI S_ 32 0#32),
    StableHlo.unary main_c main_v17 (broadcastInDim S3300000 ![] bcast_S_S3300000 : (⟨S_, .i32⟩ : BufTy).Contents (Elt F) → (⟨S3300000, .i32⟩ : BufTy).Contents (Elt F)),
    StableHlo.binary main_v3 main_v17 main_v18 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v19 (broadcastInDim S3300000 ![] bcast_S_S3300000 : (⟨S_, .i32⟩ : BufTy).Contents (Elt F) → (⟨S3300000, .i32⟩ : BufTy).Contents (Elt F)),
    StableHlo.binary main_v3 main_v19 main_v20 (addi : (⟨S3300000, .i32⟩ : BufTy).Contents (Elt F) → (⟨S3300000, .i32⟩ : BufTy).Contents (Elt F) → (⟨S3300000, .i32⟩ : BufTy).Contents (Elt F)),
    StableHlo.ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v21 main_v22 (broadcastInDim S3300000x1 ![0] bcast_S3300000_S3300000x1_0 : (⟨S3300000, .i32⟩ : BufTy).Contents (Elt F) → (⟨S3300000x1, .i32⟩ : BufTy).Contents (Elt F)),
    StableHlo.binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_5 (constantI S_ 32 0#32),
    StableHlo.unary main_c_5 main_v24 (broadcastInDim S3300000 ![] bcast_S_S3300000 : (⟨S_, .i32⟩ : BufTy).Contents (Elt F) → (⟨S3300000, .i32⟩ : BufTy).Contents (Elt F)),
    StableHlo.binary main_v6 main_v24 main_v25 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v26 (broadcastInDim S3300000 ![] bcast_S_S3300000 : (⟨S_, .i32⟩ : BufTy).Contents (Elt F) → (⟨S3300000, .i32⟩ : BufTy).Contents (Elt F)),
    StableHlo.binary main_v6 main_v26 main_v27 (addi : (⟨S3300000, .i32⟩ : BufTy).Contents (Elt F) → (⟨S3300000, .i32⟩ : BufTy).Contents (Elt F) → (⟨S3300000, .i32⟩ : BufTy).Contents (Elt F)),
    StableHlo.ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v28 main_v29 (broadcastInDim S3300000x1 ![0] bcast_S3300000_S3300000x1_0 : (⟨S3300000, .i32⟩ : BufTy).Contents (Elt F) → (⟨S3300000x1, .i32⟩ : BufTy).Contents (Elt F)),
    StableHlo.binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The first dense product `x · W1`. -/
abbrev opsDot1 : List (HloOp τ sig (Elt F)) :=
  [ StableHlo.binary main_arg0 main_arg2 main_v32 ((fun l r => Host.dotGeneral dot_S100000x512_S512x8_S100000x8_1_0_0_1_n_n none l r) : (⟨S100000x512, .f32⟩ : BufTy).Contents (Elt F) → (⟨S512x8, .f32⟩ : BufTy).Contents (Elt F) → (⟨S100000x8, .f32⟩ : BufTy).Contents (Elt F)) ]

/-- The first aggregation: rows gathered at the sources, scaled by the edge weights, summed at the targets, the bias added (19 operations, up to `%48`). -/
abbrev opsAgg1 : List (HloOp τ sig (Elt F)) :=
  [ StableHlo.nullary main_c_7 (constantI S_ 32 0#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v3 main_v33 main_v34 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v35 (broadcastInDim S3300000 ![] bcast_S_S3300000 : (⟨S_, .i32⟩ : BufTy).Contents (Elt F) → (⟨S3300000, .i32⟩ : BufTy).Contents (Elt F)),
    StableHlo.binary main_v3 main_v35 main_v36 (addi : (⟨S3300000, .i32⟩ : BufTy).Contents (Elt F) → (⟨S3300000, .i32⟩ : BufTy).Contents (Elt F) → (⟨S3300000, .i32⟩ : BufTy).Contents (Elt F)),
    StableHlo.ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v37 main_v38 (broadcastInDim S3300000x1 ![0] bcast_S3300000_S3300000x1_0 : (⟨S3300000, .i32⟩ : BufTy).Contents (Elt F) → (⟨S3300000x1, .i32⟩ : BufTy).Contents (Elt F)),
    StableHlo.binary main_v32 main_v38 main_v39 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v31 main_v40 (broadcastInDim S3300000x1 ![0] bcast_S3300000_S3300000x1_0 : (⟨S3300000, .f32⟩ : BufTy).Contents (Elt F) → (⟨S3300000x1, .f32⟩ : BufTy).Contents (Elt F)),
    StableHlo.unary main_v40 main_v41 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v39 main_v41 main_v42 (mulf : (⟨S3300000x8, .f32⟩ : BufTy).Contents (Elt F) → (⟨S3300000x8, .f32⟩ : BufTy).Contents (Elt F) → (⟨S3300000x8, .f32⟩ : BufTy).Contents (Elt F)),
    StableHlo.nullary main_cst_9 (constant S_ .f32 0x00000000#32),
    StableHlo.unary main_cst_9 main_v43 (broadcastInDim S100000x8 ![] bcast_S_S100000x8 : (⟨S_, .f32⟩ : BufTy).Contents (Elt F) → (⟨S100000x8, .f32⟩ : BufTy).Contents (Elt F)),
    StableHlo.unary main_v6 main_v44 (broadcastInDim S3300000x1 ![0] bcast_S3300000_S3300000x1_0 : (⟨S3300000, .i32⟩ : BufTy).Contents (Elt F) → (⟨S3300000x1, .i32⟩ : BufTy).Contents (Elt F)),
    StableHlo.ternary main_v43 main_v44 main_v42 main_v45 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.unary main_arg3 main_v46 (broadcastInDim S1x8 ![1] bcast_S8_S1x8_1 : (⟨S8, .f32⟩ : BufTy).Contents (Elt F) → (⟨S1x8, .f32⟩ : BufTy).Contents (Elt F)),
    StableHlo.unary main_v46 main_v47 (broadcastInDim S100000x8 ![0, 1] bcast_S1x8_S100000x8_0_1 : (⟨S1x8, .f32⟩ : BufTy).Contents (Elt F) → (⟨S100000x8, .f32⟩ : BufTy).Contents (Elt F)),
    StableHlo.binary main_v45 main_v47 main_v48 (addf : (⟨S100000x8, .f32⟩ : BufTy).Contents (Elt F) → (⟨S100000x8, .f32⟩ : BufTy).Contents (Elt F) → (⟨S100000x8, .f32⟩ : BufTy).Contents (Elt F)) ]

/-- The activation `elu`, with its two selects inline (15 operations). -/
abbrev opsElu : List (HloOp τ sig (Elt F)) :=
  [ StableHlo.TRef.nullary main_call1.cst (constant S_ .f32 0x00000000#32),
    StableHlo.TRef.unary main_call1.cst main_call1.v0 (broadcastInDim S100000x8 ![] bcast_S_S100000x8),
    StableHlo.TRef.binary (.of main_v48 : StableHlo.TRef sig ⟨S100000x8, .f32⟩) main_call1.v0 main_call1.v1 (cmpf .ogt),
    StableHlo.TRef.nullary main_call1.cst_0 (constant S_ .f32 0x00000000#32),
    StableHlo.TRef.unary main_call1.cst_0 main_call1.v2 (broadcastInDim S100000x8 ![] bcast_S_S100000x8),
    StableHlo.TRef.binary (.of main_v48 : StableHlo.TRef sig ⟨S100000x8, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x8 ![] bcast_S_S100000x8),
    StableHlo.TRef.ternary main_call1.v3 main_call1.call0.v1 (.of main_v48 : StableHlo.TRef sig ⟨S100000x8, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x8 ![] bcast_S_S100000x8),
    StableHlo.TRef.binary main_call1.v6 main_call1.v5 main_call1.v7 mulf,
    StableHlo.TRef.ternary main_call1.v1 (.of main_v48 : StableHlo.TRef sig ⟨S100000x8, .f32⟩) main_call1.v7 main_call1.call1.v0 select ]

/-- The second dense product. -/
abbrev opsDot2 : List (HloOp τ sig (Elt F)) :=
  [ StableHlo.binary main_v49 main_arg4 main_v50 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)) ]

/-- The second aggregation with its bias (19 operations, up to `%66`). -/
abbrev opsAgg2 : List (HloOp τ sig (Elt F)) :=
  [ StableHlo.nullary main_c_10 (constantI S_ 32 0#32),
    StableHlo.unary main_c_10 main_v51 (broadcastInDim S3300000 ![] bcast_S_S3300000 : (⟨S_, .i32⟩ : BufTy).Contents (Elt F) → (⟨S3300000, .i32⟩ : BufTy).Contents (Elt F)),
    StableHlo.binary main_v3 main_v51 main_v52 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 100000#32),
    StableHlo.unary main_c_11 main_v53 (broadcastInDim S3300000 ![] bcast_S_S3300000 : (⟨S_, .i32⟩ : BufTy).Contents (Elt F) → (⟨S3300000, .i32⟩ : BufTy).Contents (Elt F)),
    StableHlo.binary main_v3 main_v53 main_v54 (addi : (⟨S3300000, .i32⟩ : BufTy).Contents (Elt F) → (⟨S3300000, .i32⟩ : BufTy).Contents (Elt F) → (⟨S3300000, .i32⟩ : BufTy).Contents (Elt F)),
    StableHlo.ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v55 main_v56 (broadcastInDim S3300000x1 ![0] bcast_S3300000_S3300000x1_0 : (⟨S3300000, .i32⟩ : BufTy).Contents (Elt F) → (⟨S3300000x1, .i32⟩ : BufTy).Contents (Elt F)),
    StableHlo.binary main_v50 main_v56 main_v57 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v31 main_v58 (broadcastInDim S3300000x1 ![0] bcast_S3300000_S3300000x1_0 : (⟨S3300000, .f32⟩ : BufTy).Contents (Elt F) → (⟨S3300000x1, .f32⟩ : BufTy).Contents (Elt F)),
    StableHlo.unary main_v58 main_v59 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v57 main_v59 main_v60 (mulf : (⟨S3300000x16, .f32⟩ : BufTy).Contents (Elt F) → (⟨S3300000x16, .f32⟩ : BufTy).Contents (Elt F) → (⟨S3300000x16, .f32⟩ : BufTy).Contents (Elt F)),
    StableHlo.nullary main_cst_12 (constant S_ .f32 0x00000000#32),
    StableHlo.unary main_cst_12 main_v61 (broadcastInDim S100000x16 ![] bcast_S_S100000x16 : (⟨S_, .f32⟩ : BufTy).Contents (Elt F) → (⟨S100000x16, .f32⟩ : BufTy).Contents (Elt F)),
    StableHlo.unary main_v6 main_v62 (broadcastInDim S3300000x1 ![0] bcast_S3300000_S3300000x1_0 : (⟨S3300000, .i32⟩ : BufTy).Contents (Elt F) → (⟨S3300000x1, .i32⟩ : BufTy).Contents (Elt F)),
    StableHlo.ternary main_v61 main_v62 main_v60 main_v63 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg5 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)) ]

/-- `log_softmax` along the rows (15 operations). -/
abbrev opsLs : List (HloOp τ sig (Elt F)) :=
  [ StableHlo.TRef.nullary main_call2.cst (constant S_ .f32 0xFF800000#32),
    StableHlo.TRef.binary (.of main_v66 : StableHlo.TRef sig ⟨S100000x16, .f32⟩) main_call2.cst main_call2.v0 (fun x v => Host.reduce FloatOps.maximumf x v reducesTo_S100000x16_S100000_d1 h_S_),
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf,
    StableHlo.TRef.unary main_call2.v2 main_call2.v3 (broadcastInDim S100000x1 ![0] bcast_S100000_S100000x1_0),
    StableHlo.TRef.unary main_call2.v3 main_call2.v4 (broadcastInDim S100000x16 ![0, 1] bcast_S100000x1_S100000x16_0_1),
    StableHlo.TRef.binary (.of main_v66 : StableHlo.TRef sig ⟨S100000x16, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x16_S100000_d1 h_S_),
    StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x16 ![0, 1] bcast_S100000x1_S100000x16_0_1),
    StableHlo.TRef.binary main_call2.v5 main_call2.v10 main_call2.v11 subf ]

/-- All 113 operations, in order. -/
abbrev ops : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v15 : StableHlo.TRef sig ⟨S100000, .f32⟩) main_call0.v1 main_call0.v2 select,
    StableHlo.nullary main_c (constantI S_ 32 0#32),
    StableHlo.unary main_c main_v17 (broadcastInDim S3300000 ![] bcast_S_S3300000 : (⟨S_, .i32⟩ : BufTy).Contents (Elt F) → (⟨S3300000, .i32⟩ : BufTy).Contents (Elt F)),
    StableHlo.binary main_v3 main_v17 main_v18 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v19 (broadcastInDim S3300000 ![] bcast_S_S3300000 : (⟨S_, .i32⟩ : BufTy).Contents (Elt F) → (⟨S3300000, .i32⟩ : BufTy).Contents (Elt F)),
    StableHlo.binary main_v3 main_v19 main_v20 (addi : (⟨S3300000, .i32⟩ : BufTy).Contents (Elt F) → (⟨S3300000, .i32⟩ : BufTy).Contents (Elt F) → (⟨S3300000, .i32⟩ : BufTy).Contents (Elt F)),
    StableHlo.ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v21 main_v22 (broadcastInDim S3300000x1 ![0] bcast_S3300000_S3300000x1_0 : (⟨S3300000, .i32⟩ : BufTy).Contents (Elt F) → (⟨S3300000x1, .i32⟩ : BufTy).Contents (Elt F)),
    StableHlo.binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_5 (constantI S_ 32 0#32),
    StableHlo.unary main_c_5 main_v24 (broadcastInDim S3300000 ![] bcast_S_S3300000 : (⟨S_, .i32⟩ : BufTy).Contents (Elt F) → (⟨S3300000, .i32⟩ : BufTy).Contents (Elt F)),
    StableHlo.binary main_v6 main_v24 main_v25 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v26 (broadcastInDim S3300000 ![] bcast_S_S3300000 : (⟨S_, .i32⟩ : BufTy).Contents (Elt F) → (⟨S3300000, .i32⟩ : BufTy).Contents (Elt F)),
    StableHlo.binary main_v6 main_v26 main_v27 (addi : (⟨S3300000, .i32⟩ : BufTy).Contents (Elt F) → (⟨S3300000, .i32⟩ : BufTy).Contents (Elt F) → (⟨S3300000, .i32⟩ : BufTy).Contents (Elt F)),
    StableHlo.ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v28 main_v29 (broadcastInDim S3300000x1 ![0] bcast_S3300000_S3300000x1_0 : (⟨S3300000, .i32⟩ : BufTy).Contents (Elt F) → (⟨S3300000x1, .i32⟩ : BufTy).Contents (Elt F)),
    StableHlo.binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v23 main_v30 main_v31 (mulf : (⟨S3300000, .f32⟩ : BufTy).Contents (Elt F) → (⟨S3300000, .f32⟩ : BufTy).Contents (Elt F) → (⟨S3300000, .f32⟩ : BufTy).Contents (Elt F)),
    StableHlo.binary main_arg0 main_arg2 main_v32 ((fun l r => Host.dotGeneral dot_S100000x512_S512x8_S100000x8_1_0_0_1_n_n none l r) : (⟨S100000x512, .f32⟩ : BufTy).Contents (Elt F) → (⟨S512x8, .f32⟩ : BufTy).Contents (Elt F) → (⟨S100000x8, .f32⟩ : BufTy).Contents (Elt F)),
    StableHlo.nullary main_c_7 (constantI S_ 32 0#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v3 main_v33 main_v34 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v35 (broadcastInDim S3300000 ![] bcast_S_S3300000 : (⟨S_, .i32⟩ : BufTy).Contents (Elt F) → (⟨S3300000, .i32⟩ : BufTy).Contents (Elt F)),
    StableHlo.binary main_v3 main_v35 main_v36 (addi : (⟨S3300000, .i32⟩ : BufTy).Contents (Elt F) → (⟨S3300000, .i32⟩ : BufTy).Contents (Elt F) → (⟨S3300000, .i32⟩ : BufTy).Contents (Elt F)),
    StableHlo.ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v37 main_v38 (broadcastInDim S3300000x1 ![0] bcast_S3300000_S3300000x1_0 : (⟨S3300000, .i32⟩ : BufTy).Contents (Elt F) → (⟨S3300000x1, .i32⟩ : BufTy).Contents (Elt F)),
    StableHlo.binary main_v32 main_v38 main_v39 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v31 main_v40 (broadcastInDim S3300000x1 ![0] bcast_S3300000_S3300000x1_0 : (⟨S3300000, .f32⟩ : BufTy).Contents (Elt F) → (⟨S3300000x1, .f32⟩ : BufTy).Contents (Elt F)),
    StableHlo.unary main_v40 main_v41 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v39 main_v41 main_v42 (mulf : (⟨S3300000x8, .f32⟩ : BufTy).Contents (Elt F) → (⟨S3300000x8, .f32⟩ : BufTy).Contents (Elt F) → (⟨S3300000x8, .f32⟩ : BufTy).Contents (Elt F)),
    StableHlo.nullary main_cst_9 (constant S_ .f32 0x00000000#32),
    StableHlo.unary main_cst_9 main_v43 (broadcastInDim S100000x8 ![] bcast_S_S100000x8 : (⟨S_, .f32⟩ : BufTy).Contents (Elt F) → (⟨S100000x8, .f32⟩ : BufTy).Contents (Elt F)),
    StableHlo.unary main_v6 main_v44 (broadcastInDim S3300000x1 ![0] bcast_S3300000_S3300000x1_0 : (⟨S3300000, .i32⟩ : BufTy).Contents (Elt F) → (⟨S3300000x1, .i32⟩ : BufTy).Contents (Elt F)),
    StableHlo.ternary main_v43 main_v44 main_v42 main_v45 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.unary main_arg3 main_v46 (broadcastInDim S1x8 ![1] bcast_S8_S1x8_1 : (⟨S8, .f32⟩ : BufTy).Contents (Elt F) → (⟨S1x8, .f32⟩ : BufTy).Contents (Elt F)),
    StableHlo.unary main_v46 main_v47 (broadcastInDim S100000x8 ![0, 1] bcast_S1x8_S100000x8_0_1 : (⟨S1x8, .f32⟩ : BufTy).Contents (Elt F) → (⟨S100000x8, .f32⟩ : BufTy).Contents (Elt F)),
    StableHlo.binary main_v45 main_v47 main_v48 (addf : (⟨S100000x8, .f32⟩ : BufTy).Contents (Elt F) → (⟨S100000x8, .f32⟩ : BufTy).Contents (Elt F) → (⟨S100000x8, .f32⟩ : BufTy).Contents (Elt F)),
    StableHlo.TRef.nullary main_call1.cst (constant S_ .f32 0x00000000#32),
    StableHlo.TRef.unary main_call1.cst main_call1.v0 (broadcastInDim S100000x8 ![] bcast_S_S100000x8),
    StableHlo.TRef.binary (.of main_v48 : StableHlo.TRef sig ⟨S100000x8, .f32⟩) main_call1.v0 main_call1.v1 (cmpf .ogt),
    StableHlo.TRef.nullary main_call1.cst_0 (constant S_ .f32 0x00000000#32),
    StableHlo.TRef.unary main_call1.cst_0 main_call1.v2 (broadcastInDim S100000x8 ![] bcast_S_S100000x8),
    StableHlo.TRef.binary (.of main_v48 : StableHlo.TRef sig ⟨S100000x8, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x8 ![] bcast_S_S100000x8),
    StableHlo.TRef.ternary main_call1.v3 main_call1.call0.v1 (.of main_v48 : StableHlo.TRef sig ⟨S100000x8, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x8 ![] bcast_S_S100000x8),
    StableHlo.TRef.binary main_call1.v6 main_call1.v5 main_call1.v7 mulf,
    StableHlo.TRef.ternary main_call1.v1 (.of main_v48 : StableHlo.TRef sig ⟨S100000x8, .f32⟩) main_call1.v7 main_call1.call1.v0 select,
    StableHlo.binary main_v49 main_arg4 main_v50 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.nullary main_c_10 (constantI S_ 32 0#32),
    StableHlo.unary main_c_10 main_v51 (broadcastInDim S3300000 ![] bcast_S_S3300000 : (⟨S_, .i32⟩ : BufTy).Contents (Elt F) → (⟨S3300000, .i32⟩ : BufTy).Contents (Elt F)),
    StableHlo.binary main_v3 main_v51 main_v52 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 100000#32),
    StableHlo.unary main_c_11 main_v53 (broadcastInDim S3300000 ![] bcast_S_S3300000 : (⟨S_, .i32⟩ : BufTy).Contents (Elt F) → (⟨S3300000, .i32⟩ : BufTy).Contents (Elt F)),
    StableHlo.binary main_v3 main_v53 main_v54 (addi : (⟨S3300000, .i32⟩ : BufTy).Contents (Elt F) → (⟨S3300000, .i32⟩ : BufTy).Contents (Elt F) → (⟨S3300000, .i32⟩ : BufTy).Contents (Elt F)),
    StableHlo.ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v55 main_v56 (broadcastInDim S3300000x1 ![0] bcast_S3300000_S3300000x1_0 : (⟨S3300000, .i32⟩ : BufTy).Contents (Elt F) → (⟨S3300000x1, .i32⟩ : BufTy).Contents (Elt F)),
    StableHlo.binary main_v50 main_v56 main_v57 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v31 main_v58 (broadcastInDim S3300000x1 ![0] bcast_S3300000_S3300000x1_0 : (⟨S3300000, .f32⟩ : BufTy).Contents (Elt F) → (⟨S3300000x1, .f32⟩ : BufTy).Contents (Elt F)),
    StableHlo.unary main_v58 main_v59 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v57 main_v59 main_v60 (mulf : (⟨S3300000x16, .f32⟩ : BufTy).Contents (Elt F) → (⟨S3300000x16, .f32⟩ : BufTy).Contents (Elt F) → (⟨S3300000x16, .f32⟩ : BufTy).Contents (Elt F)),
    StableHlo.nullary main_cst_12 (constant S_ .f32 0x00000000#32),
    StableHlo.unary main_cst_12 main_v61 (broadcastInDim S100000x16 ![] bcast_S_S100000x16 : (⟨S_, .f32⟩ : BufTy).Contents (Elt F) → (⟨S100000x16, .f32⟩ : BufTy).Contents (Elt F)),
    StableHlo.unary main_v6 main_v62 (broadcastInDim S3300000x1 ![0] bcast_S3300000_S3300000x1_0 : (⟨S3300000, .i32⟩ : BufTy).Contents (Elt F) → (⟨S3300000x1, .i32⟩ : BufTy).Contents (Elt F)),
    StableHlo.ternary main_v61 main_v62 main_v60 main_v63 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    StableHlo.unary main_arg5 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)),
    StableHlo.TRef.nullary main_call2.cst (constant S_ .f32 0xFF800000#32),
    StableHlo.TRef.binary (.of main_v66 : StableHlo.TRef sig ⟨S100000x16, .f32⟩) main_call2.cst main_call2.v0 (fun x v => Host.reduce FloatOps.maximumf x v reducesTo_S100000x16_S100000_d1 h_S_),
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf,
    StableHlo.TRef.unary main_call2.v2 main_call2.v3 (broadcastInDim S100000x1 ![0] bcast_S100000_S100000x1_0),
    StableHlo.TRef.unary main_call2.v3 main_call2.v4 (broadcastInDim S100000x16 ![0, 1] bcast_S100000x1_S100000x16_0_1),
    StableHlo.TRef.binary (.of main_v66 : StableHlo.TRef sig ⟨S100000x16, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x16_S100000_d1 h_S_),
    StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x16 ![0, 1] bcast_S100000x1_S100000x16_0_1),
    StableHlo.TRef.binary main_call2.v5 main_call2.v10 main_call2.v11 subf ]

/-- The whole fold is the nine stretches' folds, one after the other. -/
theorem after_ops (V : Valuation τ sig (Elt F)) :
    StableHlo.after ops V = StableHlo.after opsLs (StableHlo.after opsAgg2 (StableHlo.after opsDot2 (StableHlo.after opsElu
      (StableHlo.after opsAgg1 (StableHlo.after opsDot1 (StableHlo.after opsPreC (StableHlo.after opsPreB (StableHlo.after opsPreA V)))))))) := rfl

set_option maxRecDepth 8192 in
set_option maxHeartbeats 4000000 in
/-- `@main` is that straight line: the called functions' bodies unfolded at their calls, the two halves of `@main`
    joined, and the sequencing re-associated. -/
theorem main_eq (c : Dev nD) : main (F := F) c = StableHlo.seq ops := by
  simp only [main, main_part0, main_part1, fn_where.body, fn_where_0.body, fn_where_1.body, fn_elu.body, fn_log_softmax.body,
    StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- From any memory with zero counters every weakly fair execution of `@main` terminates, and every buffer ends at the
    fold of the 113 operations over what the memory held at launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

end Cert.ReferenceIdeal.HandRun

end
-- ==== Proof.RefTerms.lean ====
/-
  The reference's three dense stages, each as a function of whole arrays written in the host's own operations:
  the first product `x · W1`, the activation `elu` (the positive part kept, `exp − 1` of the rest, the argument of
  `expm1` first set to zero where the entry is positive), and `log_softmax` along the rows (the row maximum
  subtracted, then the logarithm of the row's sum of exponentials subtracted).
-/
import proofs.«125811_j66511863546567_1_alg».proof.ReferenceIdeal
import proofs.«125811_j66511863546567_1_alg».proof.Proof.Gen.ReferenceIdeal

noncomputable section

namespace Cert.ReferenceIdeal.Terms

open Idealize.ShloMosaic Cert.ReferenceIdeal Cert.ReferenceIdeal.Facts₀

variable {F : FTy → Type} [FloatOps F]

/-- `x · W1`: rows of 512 features against a 512 × 8 matrix. -/
def dot1 (x : FVec F S100000x512 .f32) (w : FVec F S512x8 .f32) : FVec F S100000x8 .f32 :=
  Host.dotGeneral dot_S100000x512_S512x8_S100000x8_1_0_0_1_n_n none x w

/-- `h · W2`: rows of 8 hidden values against an 8 × 16 matrix. -/
def dot2 (h : FVec F S100000x8 .f32) (w : FVec F S8x16 .f32) : FVec F S100000x16 .f32 :=
  Host.dotGeneral dot_S100000x8_S8x16_S100000x16_1_0_0_1_n_n none h w

/-- The scalar zero spread over the hidden array. -/
def zeros8 : FVec F S100000x8 .f32 := broadcastInDim S100000x8 ![] bcast_S_S100000x8 (constant S_ .f32 0x00000000#32)

/-- `elu`: an entry above zero is kept; any other entry `y` becomes `1 · (exp y − 1)`. -/
def elu (x : FVec F S100000x8 .f32) : FVec F S100000x8 .f32 :=
  select (cmpf .ogt x zeros8) x
    (mulf (broadcastInDim S100000x8 ![] bcast_S_S100000x8 (constant S_ .f32 0x3F800000#32))
      (Host.expm1 (select (cmpf .ogt x zeros8)
        (broadcastInDim S100000x8 ![] bcast_S_S100000x8 (id (constant S_ .f32 0x00000000#32))) x)))

/-- The row maximum, as the reference takes it: the reduction from −∞, then once more the maximum with −∞. -/
def rowMax (x : FVec F S100000x16 .f32) : FVec F S100000 .f32 :=
  maximumf (broadcastInDim S100000 ![] bcast_S_S100000 (constant S_ .f32 0xFF800000#32))
    (Host.reduce FloatOps.maximumf x (constant S_ .f32 0xFF800000#32) reducesTo_S100000x16_S100000_d1 h_S_)

/-- A per-row value spread along the sixteen columns. -/
def spread (v : FVec F S100000x1 .f32) : FVec F S100000x16 .f32 :=
  broadcastInDim S100000x16 ![0, 1] bcast_S100000x1_S100000x16_0_1 v

/-- A per-row value as a column. -/
def column (v : FVec F S100000 .f32) : FVec F S100000x1 .f32 :=
  broadcastInDim S100000x1 ![0] bcast_S100000_S100000x1_0 v

/-- Each row shifted by its maximum. -/
def shifted (x : FVec F S100000x16 .f32) : FVec F S100000x16 .f32 := subf x (spread (column (rowMax x)))

/-- `log_softmax` along the rows. -/
def logSoftmax (x : FVec F S100000x16 .f32) : FVec F S100000x16 .f32 :=
  subf (shifted x) (spread (Host.log (column
    (Host.reduceAdd (Host.exp (shifted x)) (constant S_ .f32 0x00000000#32) reducesTo_S100000x16_S100000_d1 h_S_))))

end Cert.ReferenceIdeal.Terms

end
-- ==== Proof.StagesBase.lean ====
/-
  The two idealized programs compute, from the same six arrays: the edge lists with self loops, the in-degrees and the
  per-edge weights; `x · W1`; the weighted aggregation over the edges plus `b1`; `elu` and the product with `W2`; the
  second aggregation plus `b2`; and the row-wise log-softmax. The kernel program runs the three dense stages as regions
  and everything else as host operations; the reference runs every stage as host operations. The comparison goes stage
  by stage over the two devices' buffer contents, named here.
-/
import proofs.«125811_j66511863546567_1_alg».proof.Proof.KRun
import proofs.«125811_j66511863546567_1_alg».proof.Proof.RefRun
import proofs.«125811_j66511863546567_1_alg».proof.Proof.RefTerms
import Idealize.ShloMosaic.PureOps.Ideal

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

/-- Buffer contents of the kernel program's device. -/
abbrev KVal := Valuation Cert.KernelIdeal.τ Cert.KernelIdeal.sig (Elt Ideal)
/-- Buffer contents of the reference's device. -/
abbrev RVal := Valuation Cert.ReferenceIdeal.τ Cert.ReferenceIdeal.sig (Elt Ideal)

/-- The kernel program's contents after its three opening stretches. -/
abbrev preK (Wk : KVal) : KVal := after Cert.KernelIdeal.Gen.hostOps0_2 (after Cert.KernelIdeal.Gen.hostOps0_1 (after Cert.KernelIdeal.Gen.hostOps0 Wk))
/-- The reference's contents after the same three stretches. -/
abbrev preR (Wr : RVal) : RVal := after opsPreC (after opsPreB (after opsPreA Wr))

end Cert.Bridge

end
-- ==== Proof.StagesPre.lean ====
/-
  The normalisation of the graph, the same host operations in both programs, in its three stretches: the edge lists
  with the self loops appended and the in-degrees with their inverse square roots; the select that zeroes the entries of
  non-positive degree; the gathers at sources and targets and their product. Each stretch takes equal inputs to equal
  outputs.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations and the reductions stay closed: a stretch is compared operation by operation, never opened
attribute [local irreducible] Host.scatterAdd Host.gather Host.reduce concatenate

variable (Wk : KVal) (Wr : RVal)

set_option maxHeartbeats 4000000 in
/-- The source list with the self loops appended. -/
theorem preA_src (h1 : Wk (Cert.KernelIdeal.main_arg1 : DevRef Cert.KernelIdeal.τ Cert.KernelIdeal.sig) = Wr (Cert.ReferenceIdeal.main_arg1 : DevRef Cert.ReferenceIdeal.τ Cert.ReferenceIdeal.sig)) :
    after Cert.KernelIdeal.Gen.hostOps0 Wk (Cert.KernelIdeal.main_v3 : DevRef Cert.KernelIdeal.τ Cert.KernelIdeal.sig) = after opsPreA Wr (Cert.ReferenceIdeal.main_v3 : DevRef Cert.ReferenceIdeal.τ Cert.ReferenceIdeal.sig) := by
  after_results
  rw [h1]
  rfl

set_option maxHeartbeats 4000000 in
/-- The target list with the self loops appended. -/
theorem preA_dst (h1 : Wk (Cert.KernelIdeal.main_arg1 : DevRef Cert.KernelIdeal.τ Cert.KernelIdeal.sig) = Wr (Cert.ReferenceIdeal.main_arg1 : DevRef Cert.ReferenceIdeal.τ Cert.ReferenceIdeal.sig)) :
    after Cert.KernelIdeal.Gen.hostOps0 Wk (Cert.KernelIdeal.main_v6 : DevRef Cert.KernelIdeal.τ Cert.KernelIdeal.sig) = after opsPreA Wr (Cert.ReferenceIdeal.main_v6 : DevRef Cert.ReferenceIdeal.τ Cert.ReferenceIdeal.sig) := by
  after_results
  rw [h1]
  rfl

set_option maxHeartbeats 4000000 in
/-- Which in-degrees are positive. -/
theorem preA_pos (h1 : Wk (Cert.KernelIdeal.main_arg1 : DevRef Cert.KernelIdeal.τ Cert.KernelIdeal.sig) = Wr (Cert.ReferenceIdeal.main_arg1 : DevRef Cert.ReferenceIdeal.τ Cert.ReferenceIdeal.sig)) :
    after Cert.KernelIdeal.Gen.hostOps0 Wk (Cert.KernelIdeal.main_v12 : DevRef Cert.KernelIdeal.τ Cert.KernelIdeal.sig) = after opsPreA Wr (Cert.ReferenceIdeal.main_v12 : DevRef Cert.ReferenceIdeal.τ Cert.ReferenceIdeal.sig) := by
  after_results
  rw [h1]
  rfl

set_option maxHeartbeats 4000000 in
/-- The inverse square roots of the in-degrees (of at least one). -/
theorem preA_rsq (h1 : Wk (Cert.KernelIdeal.main_arg1 : DevRef Cert.KernelIdeal.τ Cert.KernelIdeal.sig) = Wr (Cert.ReferenceIdeal.main_arg1 : DevRef Cert.ReferenceIdeal.τ Cert.ReferenceIdeal.sig)) :
    after Cert.KernelIdeal.Gen.hostOps0 Wk (Cert.KernelIdeal.main_v15 : DevRef Cert.KernelIdeal.τ Cert.KernelIdeal.sig) = after opsPreA Wr (Cert.ReferenceIdeal.main_v15 : DevRef Cert.ReferenceIdeal.τ Cert.ReferenceIdeal.sig) := by
  after_results
  rw [h1]
  rfl

set_option maxHeartbeats 4000000 in
/-- The scalar zero the select will use. -/
theorem preA_zero  :
    after Cert.KernelIdeal.Gen.hostOps0 Wk (Cert.KernelIdeal.main_cst_3 : DevRef Cert.KernelIdeal.τ Cert.KernelIdeal.sig) = after opsPreA Wr (Cert.ReferenceIdeal.main_cst_3 : DevRef Cert.ReferenceIdeal.τ Cert.ReferenceIdeal.sig) := by
  after_results

set_option maxHeartbeats 4000000 in
/-- The inverse square roots with zero where the degree is not positive. -/
theorem preB_dinv (h12 : Wk (Cert.KernelIdeal.main_v12 : DevRef Cert.KernelIdeal.τ Cert.KernelIdeal.sig) = Wr (Cert.ReferenceIdeal.main_v12 : DevRef Cert.ReferenceIdeal.τ Cert.ReferenceIdeal.sig))
    (h15 : Wk (Cert.KernelIdeal.main_v15 : DevRef Cert.KernelIdeal.τ Cert.KernelIdeal.sig) = Wr (Cert.ReferenceIdeal.main_v15 : DevRef Cert.ReferenceIdeal.τ Cert.ReferenceIdeal.sig))
    (hz : Wk (Cert.KernelIdeal.main_cst_3 : DevRef Cert.KernelIdeal.τ Cert.KernelIdeal.sig) = Wr (Cert.ReferenceIdeal.main_cst_3 : DevRef Cert.ReferenceIdeal.τ Cert.ReferenceIdeal.sig)) :
    after Cert.KernelIdeal.Gen.hostOps0_1 Wk (Cert.KernelIdeal.main_v16 : DevRef Cert.KernelIdeal.τ Cert.KernelIdeal.sig) = after opsPreB Wr (Cert.ReferenceIdeal.main_v16 : DevRef Cert.ReferenceIdeal.τ Cert.ReferenceIdeal.sig) := by
  after_results
  rw [h12, h15, hz]

set_option maxHeartbeats 4000000 in
/-- The per-edge weights: the value at the source times the value at the target. -/
theorem preC_norm (h3 : Wk (Cert.KernelIdeal.main_v3 : DevRef Cert.KernelIdeal.τ Cert.KernelIdeal.sig) = Wr (Cert.ReferenceIdeal.main_v3 : DevRef Cert.ReferenceIdeal.τ Cert.ReferenceIdeal.sig))
    (h6 : Wk (Cert.KernelIdeal.main_v6 : DevRef Cert.KernelIdeal.τ Cert.KernelIdeal.sig) = Wr (Cert.ReferenceIdeal.main_v6 : DevRef Cert.ReferenceIdeal.τ Cert.ReferenceIdeal.sig))
    (h16 : Wk (Cert.KernelIdeal.main_v16 : DevRef Cert.KernelIdeal.τ Cert.KernelIdeal.sig) = Wr (Cert.ReferenceIdeal.main_v16 : DevRef Cert.ReferenceIdeal.τ Cert.ReferenceIdeal.sig)) :
    after Cert.KernelIdeal.Gen.hostOps0_2 Wk (Cert.KernelIdeal.main_v31 : DevRef Cert.KernelIdeal.τ Cert.KernelIdeal.sig) = after opsPreC Wr (Cert.ReferenceIdeal.main_v31 : DevRef Cert.ReferenceIdeal.τ Cert.ReferenceIdeal.sig) := by
  after_results
  rw [h3, h6, h16]
  rfl

end Cert.Bridge

end
-- ==== Proof.StagesKeep.lean ====
/-
  A buffer that a stretch of host operations does not write keeps its contents through the stretch: the edge lists and
  weights and the later arguments, carried past each stretch of either program.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

variable (Wk : KVal) (Wr : RVal)

-- the kernel program's opening stretches
theorem keepK_pre_arg0 : preK Wk (Cert.KernelIdeal.main_arg0 : DevRef Cert.KernelIdeal.τ Cert.KernelIdeal.sig) = Wk (Cert.KernelIdeal.main_arg0 : DevRef Cert.KernelIdeal.τ Cert.KernelIdeal.sig) := by
  simp only [after_cons, after_nil]
  rfl
theorem keepK_pre_arg2 : preK Wk (Cert.KernelIdeal.main_arg2 : DevRef Cert.KernelIdeal.τ Cert.KernelIdeal.sig) = Wk (Cert.KernelIdeal.main_arg2 : DevRef Cert.KernelIdeal.τ Cert.KernelIdeal.sig) := by
  simp only [after_cons, after_nil]
  rfl
theorem keepK_pre_arg3 : preK Wk (Cert.KernelIdeal.main_arg3 : DevRef Cert.KernelIdeal.τ Cert.KernelIdeal.sig) = Wk (Cert.KernelIdeal.main_arg3 : DevRef Cert.KernelIdeal.τ Cert.KernelIdeal.sig) := by
  simp only [after_cons, after_nil]
  rfl
theorem keepK_pre_arg4 : preK Wk (Cert.KernelIdeal.main_arg4 : DevRef Cert.KernelIdeal.τ Cert.KernelIdeal.sig) = Wk (Cert.KernelIdeal.main_arg4 : DevRef Cert.KernelIdeal.τ Cert.KernelIdeal.sig) := by
  simp only [after_cons, after_nil]
  rfl
theorem keepK_pre_arg5 : preK Wk (Cert.KernelIdeal.main_arg5 : DevRef Cert.KernelIdeal.τ Cert.KernelIdeal.sig) = Wk (Cert.KernelIdeal.main_arg5 : DevRef Cert.KernelIdeal.τ Cert.KernelIdeal.sig) := by
  simp only [after_cons, after_nil]
  rfl
theorem keepK_preB_v3 : after Cert.KernelIdeal.Gen.hostOps0_1 Wk (Cert.KernelIdeal.main_v3 : DevRef Cert.KernelIdeal.τ Cert.KernelIdeal.sig) = Wk (Cert.KernelIdeal.main_v3 : DevRef Cert.KernelIdeal.τ Cert.KernelIdeal.sig) := by
  simp only [after_cons, after_nil]
  rfl
theorem keepK_preB_v6 : after Cert.KernelIdeal.Gen.hostOps0_1 Wk (Cert.KernelIdeal.main_v6 : DevRef Cert.KernelIdeal.τ Cert.KernelIdeal.sig) = Wk (Cert.KernelIdeal.main_v6 : DevRef Cert.KernelIdeal.τ Cert.KernelIdeal.sig) := by
  simp only [after_cons, after_nil]
  rfl
theorem keepK_preC_v3 : after Cert.KernelIdeal.Gen.hostOps0_2 Wk (Cert.KernelIdeal.main_v3 : DevRef Cert.KernelIdeal.τ Cert.KernelIdeal.sig) = Wk (Cert.KernelIdeal.main_v3 : DevRef Cert.KernelIdeal.τ Cert.KernelIdeal.sig) := by
  simp only [after_cons, after_nil]
  rfl
theorem keepK_preC_v6 : after Cert.KernelIdeal.Gen.hostOps0_2 Wk (Cert.KernelIdeal.main_v6 : DevRef Cert.KernelIdeal.τ Cert.KernelIdeal.sig) = Wk (Cert.KernelIdeal.main_v6 : DevRef Cert.KernelIdeal.τ Cert.KernelIdeal.sig) := by
  simp only [after_cons, after_nil]
  rfl
-- the kernel program's stretch between its first and second regions
theorem keepK_agg1_v3 : after Cert.KernelIdeal.Gen.hostOps1 Wk (Cert.KernelIdeal.main_v3 : DevRef Cert.KernelIdeal.τ Cert.KernelIdeal.sig) = Wk (Cert.KernelIdeal.main_v3 : DevRef Cert.KernelIdeal.τ Cert.KernelIdeal.sig) := by
  simp only [after_cons, after_nil]
  rfl
theorem keepK_agg1_v6 : after Cert.KernelIdeal.Gen.hostOps1 Wk (Cert.KernelIdeal.main_v6 : DevRef Cert.KernelIdeal.τ Cert.KernelIdeal.sig) = Wk (Cert.KernelIdeal.main_v6 : DevRef Cert.KernelIdeal.τ Cert.KernelIdeal.sig) := by
  simp only [after_cons, after_nil]
  rfl
theorem keepK_agg1_v31 : after Cert.KernelIdeal.Gen.hostOps1 Wk (Cert.KernelIdeal.main_v31 : DevRef Cert.KernelIdeal.τ Cert.KernelIdeal.sig) = Wk (Cert.KernelIdeal.main_v31 : DevRef Cert.KernelIdeal.τ Cert.KernelIdeal.sig) := by
  simp only [after_cons, after_nil]
  rfl
theorem keepK_agg1_arg4 : after Cert.KernelIdeal.Gen.hostOps1 Wk (Cert.KernelIdeal.main_arg4 : DevRef Cert.KernelIdeal.τ Cert.KernelIdeal.sig) = Wk (Cert.KernelIdeal.main_arg4 : DevRef Cert.KernelIdeal.τ Cert.KernelIdeal.sig) := by
  simp only [after_cons, after_nil]
  rfl
theorem keepK_agg1_arg5 : after Cert.KernelIdeal.Gen.hostOps1 Wk (Cert.KernelIdeal.main_arg5 : DevRef Cert.KernelIdeal.τ Cert.KernelIdeal.sig) = Wk (Cert.KernelIdeal.main_arg5 : DevRef Cert.KernelIdeal.τ Cert.KernelIdeal.sig) := by
  simp only [after_cons, after_nil]
  rfl
-- the reference's stretches
theorem keepR_pre_arg0 : preR Wr (Cert.ReferenceIdeal.main_arg0 : DevRef Cert.ReferenceIdeal.τ Cert.ReferenceIdeal.sig) = Wr (Cert.ReferenceIdeal.main_arg0 : DevRef Cert.ReferenceIdeal.τ Cert.ReferenceIdeal.sig) := by
  simp only [after_cons, after_nil]
  rfl
theorem keepR_pre_arg2 : preR Wr (Cert.ReferenceIdeal.main_arg2 : DevRef Cert.ReferenceIdeal.τ Cert.ReferenceIdeal.sig) = Wr (Cert.ReferenceIdeal.main_arg2 : DevRef Cert.ReferenceIdeal.τ Cert.ReferenceIdeal.sig) := by
  simp only [after_cons, after_nil]
  rfl
theorem keepR_pre_arg3 : preR Wr (Cert.ReferenceIdeal.main_arg3 : DevRef Cert.ReferenceIdeal.τ Cert.ReferenceIdeal.sig) = Wr (Cert.ReferenceIdeal.main_arg3 : DevRef Cert.ReferenceIdeal.τ Cert.ReferenceIdeal.sig) := by
  simp only [after_cons, after_nil]
  rfl
theorem keepR_pre_arg4 : preR Wr (Cert.ReferenceIdeal.main_arg4 : DevRef Cert.ReferenceIdeal.τ Cert.ReferenceIdeal.sig) = Wr (Cert.ReferenceIdeal.main_arg4 : DevRef Cert.ReferenceIdeal.τ Cert.ReferenceIdeal.sig) := by
  simp only [after_cons, after_nil]
  rfl
theorem keepR_pre_arg5 : preR Wr (Cert.ReferenceIdeal.main_arg5 : DevRef Cert.ReferenceIdeal.τ Cert.ReferenceIdeal.sig) = Wr (Cert.ReferenceIdeal.main_arg5 : DevRef Cert.ReferenceIdeal.τ Cert.ReferenceIdeal.sig) := by
  simp only [after_cons, after_nil]
  rfl
theorem keepR_preB_v3 : after opsPreB Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_preB_v6 : after opsPreB Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_preC_v3 : after opsPreC Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_preC_v6 : after opsPreC Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_dot1_v3 : after opsDot1 Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_dot1_v6 : after opsDot1 Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_dot1_v31 : after opsDot1 Wr (Cert.ReferenceIdeal.main_v31 : DevRef Cert.ReferenceIdeal.τ Cert.ReferenceIdeal.sig) = Wr (Cert.ReferenceIdeal.main_v31 : DevRef Cert.ReferenceIdeal.τ Cert.ReferenceIdeal.sig) := by
  simp only [after_cons, after_nil]
  rfl
theorem keepR_dot1_arg3 : after opsDot1 Wr (Cert.ReferenceIdeal.main_arg3 : DevRef Cert.ReferenceIdeal.τ Cert.ReferenceIdeal.sig) = Wr (Cert.ReferenceIdeal.main_arg3 : DevRef Cert.ReferenceIdeal.τ Cert.ReferenceIdeal.sig) := by
  simp only [after_cons, after_nil]
  rfl
theorem keepR_dot1_arg4 : after opsDot1 Wr (Cert.ReferenceIdeal.main_arg4 : DevRef Cert.ReferenceIdeal.τ Cert.ReferenceIdeal.sig) = Wr (Cert.ReferenceIdeal.main_arg4 : DevRef Cert.ReferenceIdeal.τ Cert.ReferenceIdeal.sig) := by
  simp only [after_cons, after_nil]
  rfl
theorem keepR_dot1_arg5 : after opsDot1 Wr (Cert.ReferenceIdeal.main_arg5 : DevRef Cert.ReferenceIdeal.τ Cert.ReferenceIdeal.sig) = Wr (Cert.ReferenceIdeal.main_arg5 : DevRef Cert.ReferenceIdeal.τ Cert.ReferenceIdeal.sig) := by
  simp only [after_cons, after_nil]
  rfl
theorem keepR_agg1_v3 : after opsAgg1 Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_agg1_v6 : after opsAgg1 Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_agg1_v31 : after opsAgg1 Wr (Cert.ReferenceIdeal.main_v31 : DevRef Cert.ReferenceIdeal.τ Cert.ReferenceIdeal.sig) = Wr (Cert.ReferenceIdeal.main_v31 : DevRef Cert.ReferenceIdeal.τ Cert.ReferenceIdeal.sig) := by
  simp only [after_cons, after_nil]
  rfl
theorem keepR_agg1_arg4 : after opsAgg1 Wr (Cert.ReferenceIdeal.main_arg4 : DevRef Cert.ReferenceIdeal.τ Cert.ReferenceIdeal.sig) = Wr (Cert.ReferenceIdeal.main_arg4 : DevRef Cert.ReferenceIdeal.τ Cert.ReferenceIdeal.sig) := by
  simp only [after_cons, after_nil]
  rfl
theorem keepR_agg1_arg5 : after opsAgg1 Wr (Cert.ReferenceIdeal.main_arg5 : DevRef Cert.ReferenceIdeal.τ Cert.ReferenceIdeal.sig) = Wr (Cert.ReferenceIdeal.main_arg5 : DevRef Cert.ReferenceIdeal.τ Cert.ReferenceIdeal.sig) := by
  simp only [after_cons, after_nil]
  rfl
theorem keepR_elu_v3 : after opsElu Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_elu_v6 : after opsElu Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_elu_v31 : after opsElu Wr (Cert.ReferenceIdeal.main_v31 : DevRef Cert.ReferenceIdeal.τ Cert.ReferenceIdeal.sig) = Wr (Cert.ReferenceIdeal.main_v31 : DevRef Cert.ReferenceIdeal.τ Cert.ReferenceIdeal.sig) := by
  simp only [after_cons, after_nil]
  rfl
theorem keepR_elu_arg4 : after opsElu Wr (Cert.ReferenceIdeal.main_arg4 : DevRef Cert.ReferenceIdeal.τ Cert.ReferenceIdeal.sig) = Wr (Cert.ReferenceIdeal.main_arg4 : DevRef Cert.ReferenceIdeal.τ Cert.ReferenceIdeal.sig) := by
  simp only [after_cons, after_nil]
  rfl
theorem keepR_elu_arg5 : after opsElu Wr (Cert.ReferenceIdeal.main_arg5 : DevRef Cert.ReferenceIdeal.τ Cert.ReferenceIdeal.sig) = Wr (Cert.ReferenceIdeal.main_arg5 : DevRef Cert.ReferenceIdeal.τ Cert.ReferenceIdeal.sig) := by
  simp only [after_cons, after_nil]
  rfl
theorem keepR_dot2_v3 : after opsDot2 Wr (Cert.ReferenceIdeal.main_v3 : DevRef Cert.ReferenceIdeal.τ Cert.ReferenceIdeal.sig) = Wr (Cert.ReferenceIdeal.main_v3 : DevRef Cert.ReferenceIdeal.τ Cert.ReferenceIdeal.sig) := by
  simp only [after_cons, after_nil]
  rfl
theorem keepR_dot2_v6 : after opsDot2 Wr (Cert.ReferenceIdeal.main_v6 : DevRef Cert.ReferenceIdeal.τ Cert.ReferenceIdeal.sig) = Wr (Cert.ReferenceIdeal.main_v6 : DevRef Cert.ReferenceIdeal.τ Cert.ReferenceIdeal.sig) := by
  simp only [after_cons, after_nil]
  rfl
theorem keepR_dot2_v31 : after opsDot2 Wr (Cert.ReferenceIdeal.main_v31 : DevRef Cert.ReferenceIdeal.τ Cert.ReferenceIdeal.sig) = Wr (Cert.ReferenceIdeal.main_v31 : DevRef Cert.ReferenceIdeal.τ Cert.ReferenceIdeal.sig) := by
  simp only [after_cons, after_nil]
  rfl
theorem keepR_dot2_arg5 : after opsDot2 Wr (Cert.ReferenceIdeal.main_arg5 : DevRef Cert.ReferenceIdeal.τ Cert.ReferenceIdeal.sig) = Wr (Cert.ReferenceIdeal.main_arg5 : DevRef Cert.ReferenceIdeal.τ Cert.ReferenceIdeal.sig) := by
  simp only [after_cons, after_nil]
  rfl

end Cert.Bridge

end
-- ==== Proof.StagesDot1.lean ====
/-
  The reference's first dense stage: the fold of its one operation, read at the product's buffer, is `dot1` of the
  first and third arguments.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations, the reductions and the host's transcendental functions stay closed: a stretch's fold is
-- unrolled and compared operation by operation, never opened
attribute [local irreducible] Host.scatterAdd Host.gather Host.reduce concatenate Host.expm1 Host.exp Host.log

variable (Wr : RVal)

/-- The reference's first product is `dot1` of its first and third arguments. -/
theorem dot1R : after opsDot1 Wr (Cert.ReferenceIdeal.main_v32 : DevRef Cert.ReferenceIdeal.τ Cert.ReferenceIdeal.sig) = dot1 (F := Ideal) (Wr (Cert.ReferenceIdeal.main_arg0 : DevRef Cert.ReferenceIdeal.τ Cert.ReferenceIdeal.sig)) (Wr (Cert.ReferenceIdeal.main_arg2 : DevRef Cert.ReferenceIdeal.τ Cert.ReferenceIdeal.sig)) := by
  after_results
  rfl

end Cert.Bridge

end
-- ==== Proof.StagesElu.lean ====
/-
  The reference's activation: the fold of its fifteen operations (two selects inline), unrolled and read at the
  result buffer, is `elu` of the first aggregation's result.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations, the reductions and the host's transcendental functions stay closed: a stretch's fold is
-- unrolled and compared operation by operation, never opened
attribute [local irreducible] Host.scatterAdd Host.gather Host.reduce concatenate Host.expm1 Host.exp Host.log

variable (Wr : RVal)

/-- The reference's activation is `elu` of the first aggregation's result. -/
theorem eluR : after opsElu Wr (Cert.ReferenceIdeal.main_v49 : DevRef Cert.ReferenceIdeal.τ Cert.ReferenceIdeal.sig) = elu (F := Ideal) (Wr (Cert.ReferenceIdeal.main_v48 : DevRef Cert.ReferenceIdeal.τ Cert.ReferenceIdeal.sig)) := by
  simp only [after_cons, after_nil]
  rfl

end Cert.Bridge

end
-- ==== Proof.StagesDot2.lean ====
/-
  The reference's second dense stage: the fold of its one operation is `dot2` of the activation and the fifth
  argument.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations, the reductions and the host's transcendental functions stay closed: a stretch's fold is
-- unrolled and compared operation by operation, never opened
attribute [local irreducible] Host.scatterAdd Host.gather Host.reduce concatenate Host.expm1 Host.exp Host.log

variable (Wr : RVal)

/-- The reference's second product is `dot2` of the activation and the fifth argument. -/
theorem dot2R : after opsDot2 Wr (Cert.ReferenceIdeal.main_v50 : DevRef Cert.ReferenceIdeal.τ Cert.ReferenceIdeal.sig) = dot2 (F := Ideal) (Wr (Cert.ReferenceIdeal.main_v49 : DevRef Cert.ReferenceIdeal.τ Cert.ReferenceIdeal.sig)) (Wr (Cert.ReferenceIdeal.main_arg4 : DevRef Cert.ReferenceIdeal.τ Cert.ReferenceIdeal.sig)) := by
  after_results
  rfl

end Cert.Bridge

end
-- ==== Proof.StagesLs.lean ====
/-
  The reference's last stage, `log_softmax`: its fifteen operations in four short runs — the row maximum; the rows
  shifted by it; the row sums of the exponentials; the logarithm of the sums subtracted. Each run's fold, read at its
  result, is the corresponding function of what the run reads, and the four together are `logSoftmax` of the second
  aggregation's result.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations, the reductions and the host's transcendental functions stay closed: a stretch's fold is
-- unrolled and compared operation by operation, never opened
attribute [local irreducible] Host.scatterAdd Host.gather Host.reduce concatenate Host.expm1 Host.exp Host.log

section Lists
open Cert.ReferenceIdeal Cert.ReferenceIdeal.Facts₀ Cert.ReferenceIdeal.Facts
variable {F : FTy → Type} [FloatOps F]

/-- The row maximum, over ANY reduction `g` of an array from an initial value: −∞, `g` of the stage's input and −∞, −∞
    again spread over the rows, and the maximum with it. -/
abbrev lsMaxOf (g : (⟨S100000x16, .f32⟩ : BufTy).Contents (Elt F) → (⟨S_, .f32⟩ : BufTy).Contents (Elt F) → (⟨S100000, .f32⟩ : BufTy).Contents (Elt F)) : List (HloOp Cert.ReferenceIdeal.τ Cert.ReferenceIdeal.sig (Elt F)) :=
  [ StableHlo.TRef.nullary main_call2.cst (constant S_ .f32 0xFF800000#32),
    StableHlo.TRef.binary (.of main_v66 : StableHlo.TRef sig ⟨S100000x16, .f32⟩) main_call2.cst main_call2.v0 g,
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf ]

/-- The row maximum: −∞, the reduction, −∞ again spread over the rows, and the maximum with it. -/
abbrev lsMax : List (HloOp Cert.ReferenceIdeal.τ Cert.ReferenceIdeal.sig (Elt F)) :=
  lsMaxOf (fun x v => Host.reduce FloatOps.maximumf x v reducesTo_S100000x16_S100000_d1 h_S_)

/-- The maximum as a column, spread along the columns, and subtracted. -/
abbrev lsShift : List (HloOp Cert.ReferenceIdeal.τ Cert.ReferenceIdeal.sig (Elt F)) :=
  [ StableHlo.TRef.unary main_call2.v2 main_call2.v3 (broadcastInDim S100000x1 ![0] bcast_S100000_S100000x1_0),
    StableHlo.TRef.unary main_call2.v3 main_call2.v4 (broadcastInDim S100000x16 ![0, 1] bcast_S100000x1_S100000x16_0_1),
    StableHlo.TRef.binary (.of main_v66 : StableHlo.TRef sig ⟨S100000x16, .f32⟩) main_call2.v4 main_call2.v5 subf ]

/-- The exponentials and their sum along each row, from zero. -/
abbrev lsSum : List (HloOp Cert.ReferenceIdeal.τ Cert.ReferenceIdeal.sig (Elt F)) :=
  [ StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x16_S100000_d1 h_S_) ]

/-- The sum as a column, its logarithm, spread along the columns, and subtracted from the shifted rows. -/
abbrev lsOut : List (HloOp Cert.ReferenceIdeal.τ Cert.ReferenceIdeal.sig (Elt F)) :=
  [ StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x16 ![0, 1] bcast_S100000x1_S100000x16_0_1),
    StableHlo.TRef.binary main_call2.v5 main_call2.v10 main_call2.v11 subf ]

end Lists

/-- A fold over two runs in a row is the second run's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons a l ih => exact ih _

/-- The stage is its four runs, one after the other. -/
theorem opsLs_runs {F : FTy → Type} [FloatOps F] : (opsLs : List (HloOp Cert.ReferenceIdeal.τ Cert.ReferenceIdeal.sig (Elt F))) = lsMax ++ (lsShift ++ (lsSum ++ lsOut)) := rfl

variable (Wr : RVal)

/-- Whatever the reduction `g`, the first run leaves the maximum of −∞ (spread over the rows) and `g` of the stage's input
    and −∞: the reduction itself is never looked into. -/
theorem lsMaxOf_val (g : (⟨Cert.ReferenceIdeal.S100000x16, .f32⟩ : BufTy).Contents (Elt Ideal) → (⟨Cert.ReferenceIdeal.S_, .f32⟩ : BufTy).Contents (Elt Ideal) → (⟨Cert.ReferenceIdeal.S100000, .f32⟩ : BufTy).Contents (Elt Ideal)) :
    after (lsMaxOf (F := Ideal) g) Wr (Cert.ReferenceIdeal.main_call2_v2 : DevRef Cert.ReferenceIdeal.τ Cert.ReferenceIdeal.sig)
      = maximumf (broadcastInDim Cert.ReferenceIdeal.S100000 ![] Cert.ReferenceIdeal.Facts₀.bcast_S_S100000 (constant (F := Ideal) Cert.ReferenceIdeal.S_ .f32 0xFF800000#32))
          (g (Wr (Cert.ReferenceIdeal.main_v66 : DevRef Cert.ReferenceIdeal.τ Cert.ReferenceIdeal.sig)) (constant (F := Ideal) Cert.ReferenceIdeal.S_ .f32 0xFF800000#32)) := by
  simp only [after_cons, after_nil]
  rfl

/-- The first run leaves the row maxima. -/
theorem lsMax_val : after (lsMax (F := Ideal)) Wr (Cert.ReferenceIdeal.main_call2_v2 : DevRef Cert.ReferenceIdeal.τ Cert.ReferenceIdeal.sig) = rowMax (F := Ideal) (Wr (Cert.ReferenceIdeal.main_v66 : DevRef Cert.ReferenceIdeal.τ Cert.ReferenceIdeal.sig)) :=
  lsMaxOf_val Wr _

/-- Nor does it write the array the stage reads, whatever `g`. -/
theorem lsMaxOf_keep (g : (⟨Cert.ReferenceIdeal.S100000x16, .f32⟩ : BufTy).Contents (Elt Ideal) → (⟨Cert.ReferenceIdeal.S_, .f32⟩ : BufTy).Contents (Elt Ideal) → (⟨Cert.ReferenceIdeal.S100000, .f32⟩ : BufTy).Contents (Elt Ideal)) : after (lsMaxOf (F := Ideal) g) Wr (Cert.ReferenceIdeal.main_v66 : DevRef Cert.ReferenceIdeal.τ Cert.ReferenceIdeal.sig) = Wr (Cert.ReferenceIdeal.main_v66 : DevRef Cert.ReferenceIdeal.τ Cert.ReferenceIdeal.sig) := by
  simp only [after_cons, after_nil]
  rfl

/-- It does not write the array the stage reads. -/
theorem lsMax_keep : after (lsMax (F := Ideal)) Wr (Cert.ReferenceIdeal.main_v66 : DevRef Cert.ReferenceIdeal.τ Cert.ReferenceIdeal.sig) = Wr (Cert.ReferenceIdeal.main_v66 : DevRef Cert.ReferenceIdeal.τ Cert.ReferenceIdeal.sig) :=
  lsMaxOf_keep Wr _

/-- The second run leaves each row shifted by its maximum. -/
theorem lsShift_val : after (lsShift (F := Ideal)) Wr (Cert.ReferenceIdeal.main_call2_v5 : DevRef Cert.ReferenceIdeal.τ Cert.ReferenceIdeal.sig) = subf (Wr (Cert.ReferenceIdeal.main_v66 : DevRef Cert.ReferenceIdeal.τ Cert.ReferenceIdeal.sig)) (spread (F := Ideal) (column (F := Ideal) (Wr (Cert.ReferenceIdeal.main_call2_v2 : DevRef Cert.ReferenceIdeal.τ Cert.ReferenceIdeal.sig)))) := by
  simp only [after_cons, after_nil]
  rfl

/-- The third run leaves the row sums of the exponentials of the shifted rows. -/
theorem lsSum_val : after (lsSum (F := Ideal)) Wr (Cert.ReferenceIdeal.main_call2_v7 : DevRef Cert.ReferenceIdeal.τ Cert.ReferenceIdeal.sig)
    = Host.reduceAdd (Host.exp (Wr (Cert.ReferenceIdeal.main_call2_v5 : DevRef Cert.ReferenceIdeal.τ Cert.ReferenceIdeal.sig))) (constant (F := Ideal) Cert.ReferenceIdeal.S_ .f32 0x00000000#32)
        Cert.ReferenceIdeal.Facts₀.reducesTo_S100000x16_S100000_d1 Cert.ReferenceIdeal.Facts₀.h_S_ := by
  simp only [after_cons, after_nil]
  rfl

/-- It does not write the shifted rows. -/
theorem lsSum_keep : after (lsSum (F := Ideal)) Wr (Cert.ReferenceIdeal.main_call2_v5 : DevRef Cert.ReferenceIdeal.τ Cert.ReferenceIdeal.sig) = Wr (Cert.ReferenceIdeal.main_call2_v5 : DevRef Cert.ReferenceIdeal.τ Cert.ReferenceIdeal.sig) := by
  simp only [after_cons, after_nil]
  rfl

/-- The last run subtracts the logarithm of the row sums from the shifted rows. -/
theorem lsOut_val : after (lsOut (F := Ideal)) Wr (Cert.ReferenceIdeal.main_v67 : DevRef Cert.ReferenceIdeal.τ Cert.ReferenceIdeal.sig)
    = subf (Wr (Cert.ReferenceIdeal.main_call2_v5 : DevRef Cert.ReferenceIdeal.τ Cert.ReferenceIdeal.sig)) (spread (F := Ideal) (Host.log (column (F := Ideal) (Wr (Cert.ReferenceIdeal.main_call2_v7 : DevRef Cert.ReferenceIdeal.τ Cert.ReferenceIdeal.sig))))) := by
  simp only [after_cons, after_nil]
  rfl

/-- The reference's last stage is `logSoftmax` of the second aggregation's result. -/
theorem lsR : after opsLs Wr (Cert.ReferenceIdeal.main_v67 : DevRef Cert.ReferenceIdeal.τ Cert.ReferenceIdeal.sig) = logSoftmax (F := Ideal) (Wr (Cert.ReferenceIdeal.main_v66 : DevRef Cert.ReferenceIdeal.τ Cert.ReferenceIdeal.sig)) := by
  rw [opsLs_runs, after_append, after_append, after_append, lsOut_val, lsSum_val, lsSum_keep, lsShift_val, lsMax_val, lsMax_keep]
  rfl

end Cert.Bridge

end
-- ==== Proof.StagesAgg1.lean ====
/-
  The first aggregation (rows of the product gathered at the sources, scaled by the edge weights, summed at the targets,
  the bias added) is the same host operations in both programs: from equal inputs the two stretches leave equal arrays.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations and the reductions stay closed: a stretch is compared operation by operation, never opened
attribute [local irreducible] Host.scatterAdd Host.gather Host.reduce concatenate

variable (Wk : KVal) (Wr : RVal)

set_option maxHeartbeats 4000000 in
/-- From equal products, edge lists, weights and bias, the two programs' stretches leave equal arrays. -/
theorem agg1_sim (h32 : Wk (Cert.KernelIdeal.main_v32 : DevRef Cert.KernelIdeal.τ Cert.KernelIdeal.sig) = Wr (Cert.ReferenceIdeal.main_v32 : DevRef Cert.ReferenceIdeal.τ Cert.ReferenceIdeal.sig))
    (h3 : Wk (Cert.KernelIdeal.main_v3 : DevRef Cert.KernelIdeal.τ Cert.KernelIdeal.sig) = Wr (Cert.ReferenceIdeal.main_v3 : DevRef Cert.ReferenceIdeal.τ Cert.ReferenceIdeal.sig))
    (h6 : Wk (Cert.KernelIdeal.main_v6 : DevRef Cert.KernelIdeal.τ Cert.KernelIdeal.sig) = Wr (Cert.ReferenceIdeal.main_v6 : DevRef Cert.ReferenceIdeal.τ Cert.ReferenceIdeal.sig))
    (h31 : Wk (Cert.KernelIdeal.main_v31 : DevRef Cert.KernelIdeal.τ Cert.KernelIdeal.sig) = Wr (Cert.ReferenceIdeal.main_v31 : DevRef Cert.ReferenceIdeal.τ Cert.ReferenceIdeal.sig))
    (hb : Wk (Cert.KernelIdeal.main_arg3 : DevRef Cert.KernelIdeal.τ Cert.KernelIdeal.sig) = Wr (Cert.ReferenceIdeal.main_arg3 : DevRef Cert.ReferenceIdeal.τ Cert.ReferenceIdeal.sig)) :
    after Cert.KernelIdeal.Gen.hostOps1 Wk (Cert.KernelIdeal.main_v48 : DevRef Cert.KernelIdeal.τ Cert.KernelIdeal.sig) = after opsAgg1 Wr (Cert.ReferenceIdeal.main_v48 : DevRef Cert.ReferenceIdeal.τ Cert.ReferenceIdeal.sig) := by
  after_results_simp
  rw [h32, h3, h6, h31, hb]
  rfl

end Cert.Bridge

end
-- ==== Proof.StagesAgg2.lean ====
/-
  The second aggregation is again the same host operations in both programs (the kernel program's product is its
  buffer 49, the reference's its buffer 50): from equal inputs the two stretches leave equal arrays.
-/
import proofs.«125811_j66511863546567_1_alg».proof.Proof.StagesBase

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

-- the sparse operations and the reductions stay closed: a stretch is compared operation by operation, never opened
attribute [local irreducible] Host.scatterAdd Host.gather Host.reduce concatenate

variable (Wk : KVal) (Wr : RVal)

set_option maxHeartbeats 4000000 in
/-- From equal products, edge lists, weights and bias, the two programs' stretches leave equal arrays. -/
theorem agg2_sim (h49 : Wk (Cert.KernelIdeal.main_v49 : DevRef Cert.KernelIdeal.τ Cert.KernelIdeal.sig) = Wr (Cert.ReferenceIdeal.main_v50 : DevRef Cert.ReferenceIdeal.τ Cert.ReferenceIdeal.sig))
    (h3 : Wk (Cert.KernelIdeal.main_v3 : DevRef Cert.KernelIdeal.τ Cert.KernelIdeal.sig) = Wr (Cert.ReferenceIdeal.main_v3 : DevRef Cert.ReferenceIdeal.τ Cert.ReferenceIdeal.sig))
    (h6 : Wk (Cert.KernelIdeal.main_v6 : DevRef Cert.KernelIdeal.τ Cert.KernelIdeal.sig) = Wr (Cert.ReferenceIdeal.main_v6 : DevRef Cert.ReferenceIdeal.τ Cert.ReferenceIdeal.sig))
    (h31 : Wk (Cert.KernelIdeal.main_v31 : DevRef Cert.KernelIdeal.τ Cert.KernelIdeal.sig) = Wr (Cert.ReferenceIdeal.main_v31 : DevRef Cert.ReferenceIdeal.τ Cert.ReferenceIdeal.sig))
    (hb : Wk (Cert.KernelIdeal.main_arg5 : DevRef Cert.KernelIdeal.τ Cert.KernelIdeal.sig) = Wr (Cert.ReferenceIdeal.main_arg5 : DevRef Cert.ReferenceIdeal.τ Cert.ReferenceIdeal.sig)) :
    after Cert.KernelIdeal.Gen.hostOps2 Wk (Cert.KernelIdeal.main_v65 : DevRef Cert.KernelIdeal.τ Cert.KernelIdeal.sig) = after opsAgg2 Wr (Cert.ReferenceIdeal.main_v66 : DevRef Cert.ReferenceIdeal.τ Cert.ReferenceIdeal.sig) := by
  after_results_simp
  rw [h49, h3, h6, h31, hb]
  rfl

end Cert.Bridge

end
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.Region0.lean ====
/-
  The first matrix product, block by block and as a whole.

  The region runs twenty grid points; point `t` multiplies rows `5000 t … 5000 t + 4999` of the 100000 × 512 input by the
  whole 512 × 8 weight matrix and writes the 5000 × 8 result back to the same rows of the output array. At the ideal
  values the entry (r, j) of every block is the sum over k of x(r, k) · w(k, j), with no rounding to bf16 left and no
  order of summation, so the twenty blocks are the restrictions of ONE function of the two whole arrays, and that function
  is the host's `dot_general` of the reference.
-/
import proofs.«125811_j66511863546567_1_alg».proof.Proof.Gen.KernelIdeal.Frame
import proofs.«125811_j66511863546567_1_alg».proof.Proof.Gen.ReferenceIdeal
import proofs.«125811_j66511863546567_1_alg».proof.Proof.RefTerms
import proofs.«125811_j66511863546567_1_alg».proof.Proof.LibPlainDot
import Idealize.ShloMosaic.Lib.Pipeline.Value

noncomputable section

namespace Cert.KernelIdeal.Region0

open Cert.KernelIdeal Idealize.ShloMosaic Idealize.ShloMosaic.TcCoe Idealize.ShloMosaic.ValueIdx Idealize.SL.Sem
open Idealize.ShloMosaic.Pipeline (Dat)

/-- Entry (r, j) of the product of a 100000 × 512 array with a 512 × 8 array: the sum over the 512 features. -/
def rowsTimesWeights (x : S100000x512.Idx → EReal) (w : S512x8.Idx → EReal) : S100000x8.Idx → EReal :=
  fun i => ∑ k : Fin 512, x (ix2 (i 0) k) * w (ix2 k (i 1))

/-- The reference's first product is that function of its two operands. -/
theorem dot1_eq (x : FVec Ideal S100000x512 .f32) (w : FVec Ideal S512x8 .f32) :
    Cert.ReferenceIdeal.Terms.dot1 (F := Ideal) x w = rowsTimesWeights x w := by
  funext j
  unfold Cert.ReferenceIdeal.Terms.dot1
  rw [show Cert.ReferenceIdeal.dot_S100000x512_S512x8_S100000x8_1_0_0_1_n_n = DotDims.plain 100000 512 8 from rfl]
  exact PlainDot.hostDot_apply x w j

/-- The body's product of a 5000 × 512 block with the weights, at an entry of the block. -/
theorem payload_apply (x0 : Vec Ideal S5000x512 .f32) (x1 : Vec Ideal S512x8 .f32) (j : S5000x8.Idx) :
    Gen.k0_pay1 (F := Ideal) x0 x1 j = ∑ k : Fin 512, x0 (ix2 (j 0) k) * x1 (ix2 k (j 1)) := by
  unfold Gen.k0_pay1
  rw [show dot_S5000x512_S512x8_S5000x8_1_0_0_1_n_n = DotDims.plain 5000 512 8 from rfl]
  exact PlainDot.matmulZero_apply _ _ j

/-- The body loads and stores whole staging buffers: every offset is zero. -/
theorem offsetsZero : (![0, 0] : Fin 2 → Nat) = fun _ => 0 := funext fun a => by fin_cases a <;> rfl

/-- The printed index maps over the twenty points: the input's and the output's blocks sit at block row `t`, and every other
    block index is zero. -/
theorem blockRows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-- Row `p` of the input block at point `t` is row `5000 t + p` of the input array. -/
theorem inputBlock_apply (c : Dev nD) (t : Fin cfg0.N) (p : Fin 5000) (k : Fin 512) (r : Fin 100000)
    (hr : r.val = t.val * 5000 + p.val) :
    (Gen.iblk0 V c 0 t : Vec Ideal S5000x512 .f32) (ix2 p k) = (V c main_arg0 : S100000x512.Idx → EReal) (ix2 r k) := by
  obtain ⟨e0, e1, -⟩ := blockRows t
  show (V c main_arg0 : S100000x512.Idx → EReal) (((cfg0.win 0).blk t).view.emb (ix2 p k)) = (V c main_arg0 : S100000x512.Idx → EReal) (ix2 r k)
  refine congrArg (V c main_arg0 : S100000x512.Idx → EReal) (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The weight block at every point is the whole weight array. -/
theorem weightBlock_apply (c : Dev nD) (t : Fin cfg0.N) (k : Fin 512) (q : Fin 8) :
    (Gen.iblk0 V c 1 t : Vec Ideal S512x8 .f32) (ix2 k q) = (V c main_arg2 : S512x8.Idx → EReal) (ix2 k q) := by
  obtain ⟨-, -, e2, e3, -⟩ := blockRows t
  show (V c main_arg2 : S512x8.Idx → EReal) (((cfg0.win 1).blk t).view.emb (ix2 k q)) = (V c main_arg2 : S512x8.Idx → EReal) (ix2 k q)
  refine congrArg (V c main_arg2 : S512x8.Idx → EReal) (funext fun a => Fin.ext ?_)
  match a with
  | ⟨0, _⟩ => show win0_1.index t (0 : Fin 2) * 512 + 1 * k.val = k.val; omega
  | ⟨1, _⟩ => show win0_1.index t (1 : Fin 2) * 8 + 1 * q.val = q.val; omega

/-- What point `t` writes back is block `t` of the product of the two whole arrays. -/
theorem flushed_eq (c : Dev nD) (t : Fin cfg0.N) :
    (Gen.dat0 (F := Ideal) V c).flushed 2 t
      = ((cfg0.win 2).blk t).view.read (Elt Ideal) (rowsTimesWeights (V c main_arg0) (V c main_arg2)) := by
  show (cfg0.win 2).cut (grid0.coords t) ((Gen.dat0 V c).after 2 t) = _
  rw [Gen.after0_2]
  unfold Gen.out0_2
  rw [View.canon_unit_zero offsetsZero]
  simp only [View.ld_unit_zero (S := S5000x512) offsetsZero, View.ld_unit_zero (S := S512x8) offsetsZero]
  obtain ⟨-, -, -, -, e4, e5⟩ := blockRows t
  funext j
  show Gen.k0_pay1 (F := Ideal) (Gen.iblk0 V c 0 t) (Gen.iblk0 V c 1 t) j
    = rowsTimesWeights (V c main_arg0) (V c main_arg2) (((cfg0.win 2).blk t).view.emb j)
  refine (payload_apply _ _ j).trans ?_
  unfold rowsTimesWeights
  refine Finset.sum_congr rfl fun k _ => ?_
  have hrow : ((((cfg0.win 2).blk t).view.emb j) 0).val = t.val * 5000 + (j 0).val := by
    show win0_2.index t (0 : Fin 2) * 5000 + 1 * (j 0).val = _
    omega
  have hcol : ((((cfg0.win 2).blk t).view.emb j) 1).val = (j 1).val := by
    show win0_2.index t (1 : Fin 2) * 8 + 1 * (j 1).val = _
    omega
  refine congrArg₂ (· * ·) (inputBlock_apply V c t (j 0) k _ hrow) ?_
  refine (weightBlock_apply V c t k (j 1)).trans ?_
  exact congrArg (fun q : Fin 8 => (V c main_arg2 : S512x8.Idx → EReal) (ix2 k q)) (Fin.ext hcol.symm)

end Blocks

/-- An index of the output array is in point `t`'s block iff each coordinate is in the block's range on its axis. -/
theorem mem_block (t : Fin cfg0.N) (i : S100000x8.Idx) :
    i ∈ ((cfg0.win 2).blk t).view.set ↔ ∀ a : Fin 2, win0_2.index t a * S5000x8.size a ≤ (i a).val ∧ (i a).val < win0_2.index t a * S5000x8.size a + S5000x8.size a := by
  show i ∈ ((View.whole main_v32).slice (win0_2.rect t)).set ↔ _
  rw [View.set_slice_whole, Rect.mem_set_unit]
  exact Iff.rfl

/-- Row `r` of the output lies in the block of point `r / 5000`, which writes back like every point. -/
theorem covered (i : S100000x8.Idx) :
    ∃ t : Fin cfg0.N, (cfg0.win 2).flush t = true ∧ i ∈ ((cfg0.win 2).blk t).view.set := by
  have hN : grid0.N = 20 := Gen.N_0
  have hi0 : (i 0).val < 100000 := (i 0).isLt
  have hi1 : (i 1).val < 8 := (i 1).isLt
  let t : Fin cfg0.N := ⟨(i 0).val / 5000, by show (i 0).val / 5000 < grid0.N; omega⟩
  obtain ⟨-, -, -, -, e4, e5⟩ := blockRows t
  have ht : t.val = (i 0).val / 5000 := rfl
  refine ⟨t, Gen.flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 8 ≤ (i 1).val ∧ (i 1).val < win0_2.index t (1 : Fin 2) * 8 + 8; omega

/-- After the twenty points the output array is the reference's first product of the two input arrays. -/
theorem final (V : (c : Dev nD) → (b : Ref sig .tc) → Buf (Elt Ideal) ((c : Thread nD τ).loc b)) (c : Dev nD) :
    (Cert.KernelIdeal.Gen.dat0 (F := Ideal) V c).arrAt 2 cfg0.N = Cert.ReferenceIdeal.Terms.dot1 (F := Ideal) (V c main_arg0) (V c main_arg2) := by
  rw [dot1_eq]
  exact (Gen.dat0 (F := Ideal) V c).arrAt_eq_of_cover 2 (rowsTimesWeights (V c main_arg0) (V c main_arg2))
    (fun t _ => flushed_eq V c t) covered

end Cert.KernelIdeal.Region0

end
-- ==== Proof.Region1Pay.lean ====
/-
  The second dense stage at the ideal values, index by index: the activation of a row of eight hidden values
  (an entry above zero kept, any other entry `y` replaced by `exp y − 1`) against a column of the 8 × 16 matrix.
  Both programs compute `∑ k, act (x (r, k)) · w (k, q)` at row `r`, column `q`: the kernel on a block of rows with
  a matrix product into a zero accumulator, the host on the whole array with `dot_general`.
-/
import proofs.«125811_j66511863546567_1_alg».proof.Proof.Gen.KernelIdeal.Skeleton
import proofs.«125811_j66511863546567_1_alg».proof.Proof.Gen.ReferenceIdeal
import proofs.«125811_j66511863546567_1_alg».proof.Proof.RefTerms
import proofs.«125811_j66511863546567_1_alg».proof.Proof.LibPlainDot
import Idealize.ShloMosaic.Lib.ValueIdx
import Idealize.ShloMosaic.Lib.Pipeline.Value

noncomputable section

namespace Cert.KernelIdeal.Region1

open Idealize.ShloMosaic Idealize.ShloMosaic.ValueIdx Cert.KernelIdeal Cert.KernelIdeal.Gen

/-- The activation on one extended real: an entry above zero is kept, any other entry `y` becomes `exp y − 1`. -/
def act (y : EReal) : EReal :=
  Scalar.select (FloatOps.cmpf (F := Ideal) (φ := .f32) .ogt y 0) y (Ideal.exp y - 1)

/-- Row `j 0`, column `j 1` of the activated hidden array times the 8 × 16 matrix. -/
def G (x : S100000x8.Idx → EReal) (w : S8x16.Idx → EReal) : S100000x16.Idx → EReal :=
  fun j => ∑ k : Fin 8, act (x (ix2 (j 0) k)) * w (ix2 k (j 1))

/-- The bit pattern of one denotes one. -/
theorem ofBits_one_f32 : Ideal.ofBits .f32 0x3F800000#32 = 1 := by
  simp [Ideal.ofBits, Ideal.ieee]
  norm_cast
  norm_num

/-- The host's activation at an index: its inner `select` only keeps `expm1`'s argument at zero where the outer one
    discards the result, and the factor one drops. -/
theorem elu_apply (x : FVec Ideal Cert.ReferenceIdeal.S100000x8 .f32) (i : Cert.ReferenceIdeal.S100000x8.Idx) :
    Cert.ReferenceIdeal.Terms.elu (F := Ideal) x i = act (x i) := by
  unfold Cert.ReferenceIdeal.Terms.elu Cert.ReferenceIdeal.Terms.zeros8 act
  show Scalar.select (FloatOps.cmpf .ogt (x i) (Ideal.ofBits .f32 0x00000000#32)) (x i)
      (FloatOps.mulf (Ideal.ofBits .f32 0x3F800000#32) (FloatOps.hostUnary .expm1
        (Scalar.select (FloatOps.cmpf .ogt (x i) (Ideal.ofBits .f32 0x00000000#32)) (Ideal.ofBits .f32 0x00000000#32) (x i)))) = _
  rw [Ideal.ofBits_zero_f32, ofBits_one_f32]
  by_cases h : FloatOps.cmpf (F := Ideal) (φ := .f32) .ogt (x i) 0 = 1#1
  · rw [h, select_one, select_one]
  · rw [eq_zero_of_ne_one h, select_zero, select_zero, select_zero, Ideal.mulf_def, Ideal.hostUnary_expm1_def, one_mul]

/-- The kernel's dimension numbers are those of a plain product of a 10000 × 8 block by the 8 × 16 matrix. -/
theorem kernelDot_plain : dot_S10000x8_S8x16_S10000x16_1_0_0_1_n_n = DotDims.plain 10000 8 16 := rfl

/-- The host's are those of a plain product of the 100000 × 8 array by the same matrix. -/
theorem hostDot_plain : Cert.ReferenceIdeal.dot_S100000x8_S8x16_S100000x16_1_0_0_1_n_n = DotDims.plain 100000 8 16 := rfl

/-- The kernel's activation of a block, at an index. -/
theorem blockAct_apply (x0 : Vec Ideal S10000x8 .f32) (i : S10000x8.Idx) :
    select (cmpf .ogt (shapeCast S10000x8 x0 shapeCasts_S10000x8_S10000x8) (broadcast S10000x8 (Scalar.ofBits (F := Ideal) .f32 0x00000000#32)))
        (shapeCast S10000x8 x0 shapeCasts_S10000x8_S10000x8)
        (subf (exp (shapeCast S10000x8 x0 shapeCasts_S10000x8_S10000x8)) (broadcast S10000x8 (Scalar.ofBits (F := Ideal) .f32 0x3F800000#32))) i
      = act (x0 i) := by
  rw [shapeCast_self]
  show Scalar.select (FloatOps.cmpf .ogt (x0 i) (Ideal.ofBits .f32 0x00000000#32)) (x0 i)
      (FloatOps.subf (FloatOps.exp (x0 i)) (Ideal.ofBits .f32 0x3F800000#32)) = _
  rw [Ideal.ofBits_zero_f32, ofBits_one_f32]
  rfl

/-- The body's result at an index of the block: the activated row against the matrix's column. -/
theorem pay_apply (x0 : Vec Ideal S10000x8 .f32) (x1 : Vec Ideal S8x16 .f32) (p : Fin 10000) (q : Fin 16) :
    k1_pay1 (F := Ideal) x0 x1 (ix2 p q) = ∑ k : Fin 8, act (x0 (ix2 p k)) * x1 (ix2 k q) := by
  unfold k1_pay1
  rw [kernelDot_plain, PlainDot.matmulZero_apply]
  refine Finset.sum_congr rfl fun k _ => ?_
  show (truncf .bf16 _ _ : FVec Ideal S10000x8 .bf16) (ix2 p k) * (truncf .bf16 x1 _ : FVec Ideal S8x16 .bf16) (ix2 k q) = _
  rw [truncf_apply, truncf_apply, blockAct_apply]

/-- The host's product of the activated array at an index. -/
theorem ref_apply (x : FVec Ideal Cert.ReferenceIdeal.S100000x8 .f32) (w : FVec Ideal Cert.ReferenceIdeal.S8x16 .f32) :
    Cert.ReferenceIdeal.Terms.dot2 (F := Ideal) (Cert.ReferenceIdeal.Terms.elu (F := Ideal) x) w = G x w := by
  funext j
  obtain ⟨p, q, rfl⟩ : ∃ (p : Fin 100000) (q : Fin 16), j = ix2 p q := ⟨j 0, j 1, eq_ix2 j⟩
  unfold Cert.ReferenceIdeal.Terms.dot2
  rw [hostDot_plain, PlainDot.hostDot_apply]
  show ∑ k : Fin 8, Cert.ReferenceIdeal.Terms.elu (F := Ideal) x (ix2 p k) * w (ix2 k q) = ∑ k : Fin 8, act (x (ix2 p k)) * w (ix2 k q)
  refine Finset.sum_congr rfl fun k _ => ?_
  rw [elu_apply]

end Cert.KernelIdeal.Region1

end
-- ==== Proof.Region1.lean ====
/-
  Region 1 as a whole: after its ten grid points have written their blocks of 10000 rows back, the 100000 × 16
  output array is the host's second product of the activated hidden array — at row `r`, column `q` the sum over the
  eight hidden values `k` of `act (x (r, k)) · w (k, q)`. Point `t` reads rows `10000 t … 10000 t + 9999` of the hidden
  array and the whole 8 × 16 matrix and writes the same rows of the output; the ten blocks tile the array.
-/
import proofs.«125811_j66511863546567_1_alg».proof.Proof.Gen.KernelIdeal.Frame
import proofs.«125811_j66511863546567_1_alg».proof.Proof.Region1Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices at grid point `t`: the hidden array's and the output's row block is `t`, their column block
    and both of the matrix's are `0`. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at an index `j` of a block is `G` of the whole arrays at an index `i` of the output, as soon as
    row `j 0` of the hidden block is row `i 0` of the hidden array and column `j 1` of the matrix block is column `i 1`
    of the matrix. -/
theorem block_eq (X : S100000x8.Idx → EReal) (W : S8x16.Idx → EReal) (x0 : Vec Ideal S10000x8 .f32) (x1 : Vec Ideal S8x16 .f32)
    (j : S10000x16.Idx) (i : S100000x16.Idx)
    (h0 : ∀ k : Fin 8, x0 (ix2 (j 0) k) = X (ix2 (i 0) k)) (h1 : ∀ k : Fin 8, x1 (ix2 k (j 1)) = W (ix2 k (i 1))) :
    k1_pay1 (F := Ideal) x0 x1 j = G X W i := by
  obtain ⟨p, q, rfl⟩ : ∃ (p : Fin 10000) (q : Fin 16), j = ix2 p q := ⟨j 0, j 1, eq_ix2 j⟩
  obtain ⟨r, s, rfl⟩ : ∃ (r : Fin 100000) (s : Fin 16), i = ix2 r s := ⟨i 0, i 1, eq_ix2 i⟩
  rw [pay_apply]
  show _ = ∑ k : Fin 8, act (X (ix2 r k)) * W (ix2 k s)
  refine Finset.sum_congr rfl fun k _ => ?_
  exact congrArg₂ (· * ·) (congrArg act (h0 k)) (h1 k)

/-- WHAT POINT `t` WRITES BACK is block `t` of `G` of the hidden array and the matrix as the region finds them. -/
theorem flushed_eq (c : Dev nD) (t : Fin cfg1.N) :
    (dat1 V c).flushed 2 t = ((cfg1.win 2).blk t).view.read (Elt Ideal) (G (V c main_v48) (V c main_arg4)) := by
  show (cfg1.win 2).cut (grid1.coords t) ((dat1 V c).after 2 t) = _
  rw [after1_2]
  unfold out1_2
  rw [View.canon_unit_zero zeroOffsets]
  simp only [View.ld_unit_zero (S := S10000x8) zeroOffsets, View.ld_unit_zero (S := S8x16) zeroOffsets]
  obtain ⟨e0, e1, e2, e3, e4, e5⟩ := blockIndices t
  funext j
  show k1_pay1 (F := Ideal) (iblk1 V c 0 t) (iblk1 V c 1 t) j = G (V c main_v48) (V c main_arg4) (((cfg1.win 2).blk t).view.emb j)
  refine block_eq (V c main_v48) (V c main_arg4) _ _ j _ (fun k => ?_) (fun k => ?_)
  · show V c main_v48 (((cfg1.win 0).blk t).view.emb (ix2 (j 0) k)) = V c main_v48 (ix2 ((((cfg1.win 2).blk t).view.emb j) 0) k)
    congr 1
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 8 + 1 * k.val = k.val; omega
  · show V c main_arg4 (((cfg1.win 1).blk t).view.emb (ix2 k (j 1))) = V c main_arg4 (ix2 k ((((cfg1.win 2).blk t).view.emb j) 1))
    congr 1
    funext a; apply Fin.ext
    match a with
    | ⟨0, _⟩ => show win1_1.index t (0 : Fin 2) * 8 + 1 * k.val = k.val; omega
    | ⟨1, _⟩ => show win1_1.index t (1 : Fin 2) * 16 + 1 * (j 1).val = win1_2.index t (1 : Fin 2) * 16 + 1 * (j 1).val; omega

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v49).slice (win1_2.rect t)).set ↔ _
  rw [View.set_slice_whole, Rect.mem_set_unit]
  exact Iff.rfl

/-- Row `r` of the output is written back by point `r / 10000`: the ten blocks cover the array. -/
theorem cover (i : S100000x16.Idx) : ∃ t : Fin cfg1.N, (cfg1.win 2).flush t = true ∧ i ∈ ((cfg1.win 2).blk t).view.set := by
  have hN : grid1.N = 10 := N_1
  have hi0 : (i 0).val < 100000 := (i 0).isLt
  have hi1 : (i 1).val < 16 := (i 1).isLt
  obtain ⟨t, ht⟩ : ∃ t : Fin cfg1.N, t.val = (i 0).val / 10000 := ⟨⟨(i 0).val / 10000, by show _ < grid1.N; omega⟩, rfl⟩
  obtain ⟨e0, e1, e2, e3, e4, e5⟩ := blockIndices t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- THE ARRAY after the region: the host's second product of the activated hidden array. -/
theorem final (V : (c : Dev nD) → (b : Ref sig .tc) → Buf (Elt Ideal) ((c : Thread nD τ).loc b)) (c : Dev nD) :
    (Cert.KernelIdeal.Gen.dat1 (F := Ideal) V c).arrAt 2 cfg1.N
      = Cert.ReferenceIdeal.Terms.dot2 (F := Ideal) (Cert.ReferenceIdeal.Terms.elu (F := Ideal) (V c main_v48)) (V c main_arg4) :=
  ((dat1 V c).arrAt_eq_of_cover 2 (G (V c main_v48) (V c main_arg4)) (fun t _ => flushed_eq V c t) cover).trans
    (ref_apply (V c main_v48) (V c main_arg4)).symm

end Cert.KernelIdeal.Region1

end
-- ==== Proof.Region2Spec.lean ====
/-
  `log_softmax` along the rows of a 100000 × 16 array, entry by entry.

  The maximum of a row is the fold of `max` from −∞ over its sixteen entries; the entry (r, c) of the result is the entry
  minus the row's maximum, minus the logarithm of the sum over the row of the exponentials of the entries so shifted.
-/
import Idealize.ShloMosaic.Lib.ValueIdx
import Idealize.ShloMosaic.PureOps.Ideal

noncomputable section

namespace Cert.KernelIdeal.Region2Spec

open Idealize.ShloMosaic Idealize.ShloMosaic.ValueIdx

/-- The maximum of row r, folded from −∞. -/
def rowMaxAt (x : (⟨2, ![100000, 16]⟩ : Shape).Idx → EReal) (r : Fin 100000) : EReal :=
  (Finset.univ : Finset (Fin 16)).fold max ⊥ fun k => x (ix2 r k)

/-- log_softmax of row (i 0), at column (i 1). -/
def rowLogSoftmax (x : (⟨2, ![100000, 16]⟩ : Shape).Idx → EReal) : (⟨2, ![100000, 16]⟩ : Shape).Idx → EReal := fun i =>
  (x i - rowMaxAt x (i 0)) - Ideal.log (∑ k : Fin 16, Ideal.exp (x (ix2 (i 0) k) - rowMaxAt x (i 0)))

end Cert.KernelIdeal.Region2Spec

end
-- ==== Proof.LibLayout.lean ====
/-
  Layout operations and one-axis reductions of rank-2 vectors read at an index given by coordinates, at the ideal
  instance: the column forms of a broadcast and of a shape cast, a sum and a least value along either axis of a matrix,
  and a select on "the lane number is c". General lemmas over the library; no program.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLayout

open Idealize.ShloMosaic Idealize.ShloMosaic.ValueIdx

/-! ## The column forms of a broadcast and of a shape cast -/

section Layout
variable {α : Type}

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## One axis of a matrix reduced: the index put back -/

/-- Over result index `i` of a reduction along the columns, coordinate `k` put back is `(i, k)`. -/
theorem lift2_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  match c with
  | ⟨0, _⟩ => rfl
  | ⟨1, _⟩ => rfl

/-- Over result index `j` of a reduction along the rows, coordinate `k` put back is `(k, j)`. -/
theorem lift2_axis0 {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext c; apply Fin.ext
  match c with
  | ⟨0, _⟩ => rfl
  | ⟨1, _⟩ => rfl

/-! ## Sums along an axis -/

section Sums
variable {φ : FTy}

/-- A sum along the columns of a matrix, at row `i`: the sum of that row. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift2_axis1 h i k))

/-- A sum along the rows of a matrix, at column `j`: the sum of that column. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift2_axis0 h j k))

end Sums

/-! ## Least values along an axis, from +∞ -/

/-- The word of +∞ reads as `⊤`. -/
theorem ofBits_posInf_f32 : Ideal.ofBits .f32 0x7F800000#32 = (⊤ : EReal) := by
  simp [Ideal.ofBits, Ideal.ieee]

/-- A minimum-reduction over one axis, read at the ideal instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A least value along the columns of a matrix from +∞, at row `i`: the least entry of that row. -/
theorem multiReduction_min_axis1 {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (i : Fin a) :
    multiReduction .minimumf [1] ⟨1, ![a]⟩ src 0x7F800000#32 h hφ hacc (ix1 i)
      = (Finset.univ : Finset (Fin b)).inf fun k => src (ix2 i k) := by
  refine (multiReduction_minimumf_single src _ h hφ hacc (ix1 i)).trans ?_
  have hf : (src ∘ h.lift (ix1 i)) = fun k : Fin b => src (ix2 i k) :=
    funext fun k => congrArg src (lift2_axis1 h i k)
  rw [Ideal.ofBits_def, ofBits_posInf_f32]
  exact congrArg (fun f => Finset.fold min (⊤ : EReal) f (Finset.univ : Finset (Fin b))) hf

/-- A least value along the rows of a matrix from +∞, at column `j`: the least entry of that column. -/
theorem multiReduction_min_axis0 {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (j : Fin b) :
    multiReduction .minimumf [0] ⟨1, ![b]⟩ src 0x7F800000#32 h hφ hacc (ix1 j)
      = (Finset.univ : Finset (Fin a)).inf fun k => src (ix2 k j) := by
  refine (multiReduction_minimumf_single src _ h hφ hacc (ix1 j)).trans ?_
  have hf : (src ∘ h.lift (ix1 j)) = fun k : Fin a => src (ix2 k j) :=
    funext fun k => congrArg src (lift2_axis0 h j k)
  rw [Ideal.ofBits_def, ofBits_posInf_f32]
  exact congrArg (fun f => Finset.fold min (⊤ : EReal) f (Finset.univ : Finset (Fin a))) hf

/-! ## A select on "the lane number is c" -/

/-- An integer comparison of vectors at an index compares the elements. -/
theorem cmpi_apply {s : Shape} {w : Nat} (p : CmpIPredicate) (x y : IVec s w) (i : s.Idx) :
    cmpi p x y i = IntOp.cmpi p (x i) (y i) := rfl

/-- A select whose condition is "the 32-bit word of `n` equals the word of `c`", both below 2³², is the `if` on `n = c`. -/
theorem select_lane_eq {α : Type} (n c : Nat) (hn : n < 2 ^ 32) (hc : c < 2 ^ 32) (A B : α) :
    Scalar.select (IntOp.cmpi .eq (BitVec.ofNat 32 n) (BitVec.ofNat 32 c)) A B = if n = c then A else B := by
  have hc' : IntOp.cmpi .eq (BitVec.ofNat 32 n) (BitVec.ofNat 32 c)
      = BitVec.ofBool (BitVec.ofNat 32 n == BitVec.ofNat 32 c) := rfl
  rw [hc']
  unfold Scalar.select
  by_cases h : n = c
  · subst h; simp
  · have hne : ¬ (BitVec.ofNat 32 n = BitVec.ofNat 32 c) := fun e => h (by
      have e' := congrArg BitVec.toNat e
      rw [BitVec.toNat_ofNat, BitVec.toNat_ofNat, Nat.mod_eq_of_lt hn, Nat.mod_eq_of_lt hc] at e'
      exact e')
    have hb : (BitVec.ofNat 32 n == BitVec.ofNat 32 c) = false := by
      rw [beq_eq_false_iff_ne]; exact hne
    rw [hb, if_neg h]
    exact if_neg (by decide)

end Cert.LibLayout

end
-- ==== Proof.Region2Pay.lean ====
/-
  The row-wise log-softmax of a matrix with sixteen columns, as one function of the matrix read entry by entry, and the
  kernel's block arithmetic as that function of a block of rows: at (r, j) both are
  (x(r,j) − M r) − log (∑ k, exp (x(r,k) − M r)), with M r the fold of max from −∞ over row r. The function of a block of
  rows of an array is the block of the function of the array, since each entry looks only along its own row.
-/
import proofs.«125811_j66511863546567_1_alg».proof.Proof.LibLayout
import proofs.«125811_j66511863546567_1_alg».proof.Proof.Region2Spec
import proofs.«125811_j66511863546567_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region2

open Idealize.ShloMosaic Idealize.ShloMosaic.ValueIdx Cert.LibLayout

/-! ## The function -/

/-- The maximum of row `r`, folded from −∞ over the sixteen columns. -/
def rowMax {n : ℕ} (x : (⟨2, ![n, 16]⟩ : Shape).Idx → EReal) (r : Fin n) : EReal :=
  (Finset.univ : Finset (Fin 16)).fold max (⊥ : EReal) fun k => x (ix2 r k)

/-- The log-softmax of each row: the entry less the row's maximum, less the logarithm of the row's sum of the
    exponentials of the entries less that maximum. -/
def logSoftmaxRows {n : ℕ} (x : (⟨2, ![n, 16]⟩ : Shape).Idx → EReal) : (⟨2, ![n, 16]⟩ : Shape).Idx → EReal := fun j =>
  (x j - rowMax x (j 0)) - Ideal.log (∑ k : Fin 16, Ideal.exp (x (ix2 (j 0) k) - rowMax x (j 0)))

theorem logSoftmaxRows_apply {n : ℕ} (x : (⟨2, ![n, 16]⟩ : Shape).Idx → EReal) (p : Fin n) (q : Fin 16) :
    logSoftmaxRows x (ix2 p q)
      = (x (ix2 p q) - rowMax x p) - Ideal.log (∑ k : Fin 16, Ideal.exp (x (ix2 p k) - rowMax x p)) := rfl

/-- On the 100000 rows of the whole array it is the function the reference's side is read as. -/
theorem logSoftmaxRows_eq_spec (x : (⟨2, ![100000, 16]⟩ : Shape).Idx → EReal) :
    logSoftmaxRows x = Region2Spec.rowLogSoftmax x := rfl

/-- Rows taken through a map `e` of indices that shifts the row number by `off` and keeps the column: the log-softmax of
    the rows taken is the log-softmax of the array, read through `e`. -/
theorem logSoftmaxRows_rows {n m : ℕ} (X : (⟨2, ![m, 16]⟩ : Shape).Idx → EReal)
    (e : (⟨2, ![n, 16]⟩ : Shape).Idx → (⟨2, ![m, 16]⟩ : Shape).Idx) (off : ℕ)
    (he0 : ∀ z, ((e z) 0).val = off + (z 0).val) (he1 : ∀ z, ((e z) 1).val = (z 1).val)
    (y : (⟨2, ![n, 16]⟩ : Shape).Idx) :
    logSoftmaxRows (fun z => X (e z)) y = logSoftmaxRows X (e y) := by
  have hk : ∀ k : Fin 16, e (ix2 (y 0) k) = ix2 ((e y) 0) k := fun k => funext fun a => Fin.ext (by
    match a with
    | ⟨0, _⟩ => show ((e (ix2 (y 0) k)) 0).val = ((e y) 0).val; rw [he0, he0]; rfl
    | ⟨1, _⟩ => show ((e (ix2 (y 0) k)) 1).val = k.val; rw [he1]; rfl)
  have hM : rowMax (fun z => X (e z)) (y 0) = rowMax X ((e y) 0) := by
    unfold rowMax
    exact congrArg (fun f => Finset.fold max (⊥ : EReal) f (Finset.univ : Finset (Fin 16))) (funext fun k => congrArg X (hk k))
  show (X (e y) - rowMax (fun z => X (e z)) (y 0))
      - Ideal.log (∑ k : Fin 16, Ideal.exp (X (e (ix2 (y 0) k)) - rowMax (fun z => X (e z)) (y 0)))
    = (X (e y) - rowMax X ((e y) 0)) - Ideal.log (∑ k : Fin 16, Ideal.exp (X (ix2 ((e y) 0) k) - rowMax X ((e y) 0)))
  rw [hM]
  simp only [hk]
  rfl

/-- The word of −∞ reads as `⊥`. -/
theorem ofBits_negInf_f32 : Ideal.ofBits .f32 0xFF800000#32 = (⊥ : EReal) := by
  simp [Ideal.ofBits, Ideal.ieee]

/-! ## The kernel's operations at an index -/

/-- A greatest value along the columns of a matrix from −∞, at row `i`: the fold of max over that row. -/
theorem multiReduction_max_axis1 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = (Finset.univ : Finset (Fin b)).fold max (⊥ : EReal) fun k => src (ix2 i k) := by
  refine (Ideal.multiReduction_maximumf_single src _ h hφ hacc (ix1 i)).trans ?_
  have hf : (src ∘ h.lift (ix1 i)) = fun k : Fin b => src (ix2 i k) :=
    funext fun k => congrArg src (lift2_axis1 h i k)
  rw [Ideal.ofBits_def, ofBits_negInf_f32]
  exact congrArg (fun f => Finset.fold max (⊥ : EReal) f (Finset.univ : Finset (Fin b))) hf

/-- A per-row value cast to a column and spread along the columns reads, at `(p, q)`, the value of row `p`. -/
theorem spread_column_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-! ## The kernel's block arithmetic -/

open Cert.KernelIdeal Cert.KernelIdeal.Gen in
/-- The kernel's arithmetic on a block of rows, at an entry: the log-softmax of the block's rows. -/
theorem payload_apply (x0 : Vec Ideal S10000x16 .f32) (p : Fin 10000) (q : Fin 16) :
    k2_pay1 (F := Ideal) x0 (ix2 p q) = logSoftmaxRows x0 (ix2 p q) := by
  -- the row maxima and the shifted rows, each read at an index
  let M : FVec Ideal S10000 .f32 :=
    multiReduction .maximumf [1] S10000 x0 0xFF800000#32 reduces_S10000x16_S10000 (.inl rfl) rfl
  have hM : ∀ r : Fin 10000, M (ix1 r) = rowMax x0 r := fun r => multiReduction_max_axis1 x0 _ _ _ r
  let D : FVec Ideal S10000x16 .f32 :=
    subf x0 (broadcastTo S10000x16 (shapeCast S10000x1 M shapeCasts_S10000_S10000x1) broadcasts_S10000x1_S10000x16)
  have hD : ∀ (r : Fin 10000) (k : Fin 16), D (ix2 r k) = x0 (ix2 r k) - rowMax x0 r := fun r k => by
    show x0 (ix2 r k) - broadcastTo S10000x16 (shapeCast S10000x1 M shapeCasts_S10000_S10000x1) broadcasts_S10000x1_S10000x16 (ix2 r k) = _
    rw [spread_column_apply, hM]
  unfold k2_pay1
  simp only [shapeCast_self]
  rw [subf_apply]
  show D (ix2 p q) - _ = _
  rw [logSoftmaxRows_apply, hD, broadcastTo_a1_ab_apply]
  show _ - Ideal.log (shapeCast S10000x1 _ shapeCasts_S10000_S10000x1 (ix2 p (0 : Fin 1))) = _
  rw [shapeCast_a_a1_apply]
  refine congrArg (fun z => x0 (ix2 p q) - rowMax x0 p - Ideal.log z) ?_
  -- the row's sum of the exponentials of the shifted entries
  refine (multiReduction_add_axis1 _ _ _ _ _ p).trans (Finset.sum_congr rfl fun k _ => ?_)
  show Ideal.exp (D (ix2 p k)) = _
  rw [hD]

open Cert.KernelIdeal Cert.KernelIdeal.Gen in
/-- The kernel's arithmetic on a block of rows is the log-softmax of the block's rows. -/
theorem payload_eq (x0 : Vec Ideal S10000x16 .f32) : k2_pay1 (F := Ideal) x0 = logSoftmaxRows x0 :=
  funext fun j => by
    obtain ⟨p, q, rfl⟩ : ∃ (p : Fin 10000) (q : Fin 16), j = ix2 p q := ⟨j 0, j 1, eq_ix2 j⟩
    exact payload_apply x0 p q

end Cert.KernelIdeal.Region2

end
-- ==== Proof.Region2.lean ====
/-
  The third region, block by block and as a whole.

  The region runs ten grid points; point `t` reads rows `10000 t … 10000 t + 9999` of the 100000 × 16 input, takes the
  log-softmax of each of those rows, and writes the 10000 × 16 result back to the same rows of the output array. The
  log-softmax of a row looks at that row only, so the ten blocks are the restrictions of ONE function of the whole input
  array: the log-softmax of its rows.
-/
import proofs.«125811_j66511863546567_1_alg».proof.Proof.Gen.KernelIdeal.Frame
import proofs.«125811_j66511863546567_1_alg».proof.Proof.Region2Spec
import proofs.«125811_j66511863546567_1_alg».proof.Proof.Region2Pay
import Idealize.ShloMosaic.Lib.Pipeline.Value

noncomputable section

namespace Cert.KernelIdeal.Region2

open Cert.KernelIdeal Idealize.ShloMosaic Idealize.ShloMosaic.TcCoe Idealize.ShloMosaic.ValueIdx Idealize.SL.Sem
open Idealize.ShloMosaic.Pipeline (Dat)

/-- The body loads and stores whole staging buffers: every offset is zero. -/
theorem offsetsZero : (![0, 0] : Fin 2 → Nat) = fun _ => 0 := funext fun a => by fin_cases a <;> rfl

/-- The printed index maps over the ten points: the input's and the output's blocks sit at block row `t`, block column 0. -/
theorem blockRows : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section Blocks

variable (V : (c : Dev nD) → (b : Ref sig .tc) → Buf (Elt Ideal) ((c : Thread nD τ).loc b))

/-- What point `t` writes back is block `t` of the log-softmax of the rows of the whole input array. -/
theorem flushed_eq (c : Dev nD) (t : Fin cfg2.N) :
    (Gen.dat2 (F := Ideal) V c).flushed 1 t
      = ((cfg2.win 1).blk t).view.read (Elt Ideal) (Region2Spec.rowLogSoftmax (V c main_v65)) := by
  show (cfg2.win 1).cut (grid2.coords t) ((Gen.dat2 V c).after 1 t) = _
  rw [Gen.after2_1]
  unfold Gen.out2_1
  rw [View.canon_unit_zero offsetsZero]
  simp only [View.ld_unit_zero (S := S10000x16) offsetsZero]
  obtain ⟨e0, e1, e2, e3⟩ := blockRows t
  funext j
  show Gen.k2_pay1 (F := Ideal) (Gen.iblk2 V c 0 t) j
    = Region2Spec.rowLogSoftmax (V c main_v65) (((cfg2.win 1).blk t).view.emb j)
  refine (congrFun (payload_eq _) j).trans ?_
  rw [← logSoftmaxRows_eq_spec]
  -- the input block is the input array read through the block's rows
  show logSoftmaxRows (fun z => (V c main_v65 : S100000x16.Idx → EReal) (((cfg2.win 0).blk t).view.emb z)) j = _
  refine (logSoftmaxRows_rows (V c main_v65 : S100000x16.Idx → EReal) (((cfg2.win 0).blk t).view.emb) (t.val * 10000)
    (fun z => ?_) (fun z => ?_) j).trans ?_
  · show win2_0.index t (0 : Fin 2) * 10000 + 1 * (z 0).val = _
    omega
  · show win2_0.index t (1 : Fin 2) * 16 + 1 * (z 1).val = _
    omega
  -- and the output block sits on the same rows
  refine congrArg (logSoftmaxRows (V c main_v65 : S100000x16.Idx → EReal)) (funext fun a => Fin.ext ?_)
  match a with
  | ⟨0, _⟩ => show win2_0.index t (0 : Fin 2) * 10000 + 1 * (j 0).val = win2_1.index t (0 : Fin 2) * 10000 + 1 * (j 0).val; omega
  | ⟨1, _⟩ => show win2_0.index t (1 : Fin 2) * 16 + 1 * (j 1).val = win2_1.index t (1 : Fin 2) * 16 + 1 * (j 1).val; omega

end Blocks

/-- An index of the output array is in point `t`'s block iff each coordinate is in the block's range on its axis. -/
theorem mem_block (t : Fin cfg2.N) (i : S100000x16.Idx) :
    i ∈ ((cfg2.win 1).blk t).view.set ↔ ∀ a : Fin 2, win2_1.index t a * S10000x16.size a ≤ (i a).val ∧ (i a).val < win2_1.index t a * S10000x16.size a + S10000x16.size a := by
  show i ∈ ((View.whole main_v66).slice (win2_1.rect t)).set ↔ _
  rw [View.set_slice_whole, Rect.mem_set_unit]
  exact Iff.rfl

/-- Row `r` of the output lies in the block of point `r / 10000`, which writes back like every point. -/
theorem covered (i : S100000x16.Idx) :
    ∃ t : Fin cfg2.N, (cfg2.win 1).flush t = true ∧ i ∈ ((cfg2.win 1).blk t).view.set := by
  have hN : grid2.N = 10 := Gen.N_2
  have hi0 : (i 0).val < 100000 := (i 0).isLt
  have hi1 : (i 1).val < 16 := (i 1).isLt
  let t : Fin cfg2.N := ⟨(i 0).val / 10000, by show (i 0).val / 10000 < grid2.N; omega⟩
  obtain ⟨-, -, e2, e3⟩ := blockRows t
  have ht : t.val = (i 0).val / 10000 := rfl
  refine ⟨t, Gen.flush2_1 t, ?_⟩
  rw [mem_block]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 16 ≤ (i 1).val ∧ (i 1).val < win2_1.index t (1 : Fin 2) * 16 + 16; omega

/-- After the ten points the output array is the log-softmax of the rows of the input array. -/
theorem final' (V : (c : Dev nD) → (b : Ref sig .tc) → Buf (Elt Ideal) ((c : Thread nD τ).loc b)) (c : Dev nD) :
    (Cert.KernelIdeal.Gen.dat2 (F := Ideal) V c).arrAt 1 cfg2.N = Cert.KernelIdeal.Region2Spec.rowLogSoftmax (V c main_v65) :=
  (Gen.dat2 (F := Ideal) V c).arrAt_eq_of_cover 1 (Region2Spec.rowLogSoftmax (V c main_v65))
    (fun t _ => flushed_eq V c t) covered

end Cert.KernelIdeal.Region2

end
-- ==== Proof.Region2Ref.lean ====
/-
  The reference's `log_softmax` read entry by entry.

  Each host operation is read at an index given by its coordinates: the reduction with a maximum body from −∞ is the fold
  of `max` over the row, and the further maximum with −∞ changes nothing; a value per row spread as a column and then
  along the sixteen columns is that row's value at every column; the reduction with an add body from zero is the sum over
  the row. Put together, the entry (r, c) is the entry minus the row's maximum, minus the logarithm of the row's sum of
  exponentials of the shifted entries.
-/
import proofs.«125811_j66511863546567_1_alg».proof.Proof.Region2Spec
import proofs.«125811_j66511863546567_1_alg».proof.Proof.RefTerms
import proofs.«125811_j66511863546567_1_alg».proof.Proof.Gen.ReferenceIdeal
import Idealize.ShloMosaic.Lib.ValueIdx
import Idealize.ShloMosaic.Lib.Pipeline.Value
import Idealize.ShloMosaic.PureOps.Ideal.Laws
import proofs.«125811_j66511863546567_1_alg».proof.Proof.LibLayout

noncomputable section

namespace Cert.KernelIdeal.Region2Ref

open Idealize.ShloMosaic Idealize.ShloMosaic.ValueIdx Cert.ReferenceIdeal Cert.ReferenceIdeal.Facts₀ Cert.ReferenceIdeal.Terms
open Cert.KernelIdeal.Region2Spec

/-- The word of −∞ reads as `⊥`. -/
theorem ofBits_negInf_f32 : Ideal.ofBits .f32 0xFF800000#32 = (⊥ : EReal) := by
  simp [Ideal.ofBits, Ideal.ieee]

/-- Dropping the column axis of a 100000 × 16 array leaves its 100000 rows. -/
theorem reduces_cols : S100000x16.Reduces [1] S100000 := by decide

/-- The maximum with −∞ spread over the rows changes nothing. -/
theorem max_negInf_apply (m : FVec Ideal S100000 .f32) (i : S100000.Idx) :
    maximumf (F := Ideal) (broadcastInDim S100000 ![] bcast_S_S100000 (constant (F := Ideal) S_ .f32 0xFF800000#32)) m i = m i := by
  show max (Ideal.ofBits .f32 0xFF800000#32) (m i) = m i
  rw [ofBits_negInf_f32]
  exact max_eq_right bot_le

/-- The reference's row maximum at row `p` is the fold of `max` from −∞ over the row. -/
theorem rowMax_apply (x : FVec Ideal S100000x16 .f32) (p : Fin 100000) :
    rowMax (F := Ideal) x (ix1 p) = rowMaxAt x p := by
  unfold rowMax
  refine (max_negInf_apply _ (ix1 p)).trans ?_
  refine (Host.reduce_eq_fold_single FloatOps.maximumf x _ reducesTo_S100000x16_S100000_d1 reduces_cols h_S_ (ix1 p)).trans ?_
  have hf : (x ∘ reduces_cols.lift (ix1 p)) = fun k : Fin 16 => x (ix2 p k) :=
    funext fun k => congrArg x (Cert.LibLayout.lift2_axis1 reduces_cols p k)
  have hinit : (constant (F := Ideal) S_ .f32 0xFF800000#32) (Shape.Idx.first h_S_) = (⊥ : EReal) := ofBits_negInf_f32
  rw [hinit]
  exact congrArg (fun f => Finset.fold max (⊥ : EReal) f (Finset.univ : Finset (Fin 16))) hf

/-- A value per row set as a column: at `(p, u)` the row's value. -/
theorem column_apply (v : FVec Ideal S100000 .f32) (p : Fin 100000) (u : Fin 1) :
    column (F := Ideal) v (ix2 p u) = v (ix1 p) := by
  unfold column
  refine broadcastInDim_apply _ _ v (ix2 p u) (ix1 p) fun a => ?_
  match a with
  | ⟨0, _⟩ => show p.val = if (100000 : Nat) = 1 then 0 else p.val; rw [if_neg (by decide)]

/-- A column spread along the sixteen columns: at `(p, q)` the column's entry `p`. -/
theorem spread_apply (v : FVec Ideal S100000x1 .f32) (p : Fin 100000) (q : Fin 16) :
    spread (F := Ideal) v (ix2 p q) = v (ix2 p (0 : Fin 1)) := by
  unfold spread
  refine broadcastInDim_apply _ _ v (ix2 p q) (ix2 p (0 : Fin 1)) fun a => ?_
  match a with
  | ⟨0, _⟩ => show p.val = if (100000 : Nat) = 1 then 0 else p.val; rw [if_neg (by decide)]
  | ⟨1, _⟩ => rfl

/-- An entry shifted by its row's maximum. -/
theorem shifted_apply (x : FVec Ideal S100000x16 .f32) (p : Fin 100000) (q : Fin 16) :
    shifted (F := Ideal) x (ix2 p q) = x (ix2 p q) - rowMaxAt x p := by
  unfold shifted
  rw [subf_apply, spread_apply, column_apply, rowMax_apply]

/-- The host's logarithm at an index. -/
theorem hostLog_apply {s : Shape} (v : FVec Ideal s .f32) (i : s.Idx) : Host.log (F := Ideal) v i = Ideal.log (v i) := rfl

/-- The reference's sum along the columns, from zero, of the exponentials of an array: at row `p` the sum over the row. -/
theorem sumExp_apply (y : FVec Ideal S100000x16 .f32) (p : Fin 100000) :
    Host.reduceAdd (F := Ideal) (Host.exp (F := Ideal) y) (constant (F := Ideal) S_ .f32 0x00000000#32) reducesTo_S100000x16_S100000_d1 h_S_ (ix1 p)
      = ∑ k : Fin 16, Ideal.exp (y (ix2 p k)) := by
  unfold Host.reduceAdd
  rw [Ideal.hostReduceAdd_def]
  refine (Ideal.hostReduceAdd_single reducesTo_S100000x16_S100000_d1 reduces_cols _ _ (ix1 p)).trans ?_
  have hinit : (constant (F := Ideal) S_ .f32 0x00000000#32) (Shape.Idx.first h_S_) = (0 : EReal) := Ideal.ofBits_zero_f32
  rw [hinit, zero_add]
  exact Finset.sum_congr rfl fun k _ =>
    congrArg (fun i => Ideal.exp (y i)) (Cert.LibLayout.lift2_axis1 reduces_cols p k)

/-- The reference's `log_softmax` is, entry by entry, the entry minus its row's maximum, minus the logarithm of the row's sum of
    exponentials of the shifted entries. -/
theorem logSoftmax_eq (x : FVec Ideal Cert.ReferenceIdeal.S100000x16 .f32) :
    Cert.ReferenceIdeal.Terms.logSoftmax (F := Ideal) x = Cert.KernelIdeal.Region2Spec.rowLogSoftmax x := by
  funext j
  obtain ⟨p, q, rfl⟩ : ∃ (p : Fin 100000) (q : Fin 16), j = ix2 p q := ⟨j 0, j 1, eq_ix2 j⟩
  unfold logSoftmax rowLogSoftmax
  rw [subf_apply, shifted_apply, spread_apply, hostLog_apply, column_apply, sumExp_apply]
  simp only [shifted_apply]

end Cert.KernelIdeal.Region2Ref

end
-- ==== Proof.StagesMain.lean ====
/-
  The chain. From launch memories that agree on the six arguments, the two programs' buffer contents agree, stage after
  stage, on every buffer still to be read: after the normalisation on the edge lists, the weights and the arguments; after
  the first product (the kernel program's first region, whose output array is `dot1` of its input arrays) also on the
  product; after the first aggregation on its result; after the activation and the second product (the second region:
  `dot2` of `elu`); after the second aggregation; and after the log-softmax (the third region) on the result itself.
-/
import proofs.«125811_j66511863546567_1_alg».proof.Proof.StagesPre
import proofs.«125811_j66511863546567_1_alg».proof.Proof.StagesKeep
import proofs.«125811_j66511863546567_1_alg».proof.Proof.StagesDot1
import proofs.«125811_j66511863546567_1_alg».proof.Proof.StagesElu
import proofs.«125811_j66511863546567_1_alg».proof.Proof.StagesDot2
import proofs.«125811_j66511863546567_1_alg».proof.Proof.StagesLs
import proofs.«125811_j66511863546567_1_alg».proof.Proof.StagesAgg1
import proofs.«125811_j66511863546567_1_alg».proof.Proof.StagesAgg2
import proofs.«125811_j66511863546567_1_alg».proof.Proof.Region0
import proofs.«125811_j66511863546567_1_alg».proof.Proof.Region1
import proofs.«125811_j66511863546567_1_alg».proof.Proof.Region2
import proofs.«125811_j66511863546567_1_alg».proof.Proof.Region2Ref

set_option maxRecDepth 16384

noncomputable section

namespace Cert.Bridge

open Idealize.ShloMosaic Idealize.ShloMosaic.TcCoe Idealize.SL.Sem Idealize.ShloMosaic.StableHlo
open Cert.ReferenceIdeal.HandRun Cert.ReferenceIdeal.Terms

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's contents after each of its first eight stretches, from its launch memory. -/
abbrev RA : RVal := after opsPreA (launchContents m' c)
abbrev RB : RVal := after opsPreB (RA m' c)
abbrev RC : RVal := after opsPreC (RB m' c)
abbrev RD : RVal := after opsDot1 (RC m' c)
abbrev RE : RVal := after opsAgg1 (RD m' c)
abbrev RF : RVal := after opsElu (RE m' c)
abbrev RG : RVal := after opsDot2 (RF m' c)
abbrev RH : RVal := after opsAgg2 (RG m' c)

set_option maxHeartbeats 4000000 in
/-- The kernel program's result buffer, after its last region, holds what the reference's result buffer holds after its
    last operation. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W8 m ρ c (Cert.KernelIdeal.main_v66 : DevRef Cert.KernelIdeal.τ Cert.KernelIdeal.sig) = after ops (launchContents m' c) (Cert.ReferenceIdeal.main_v67 : DevRef Cert.ReferenceIdeal.τ Cert.ReferenceIdeal.sig) := by
  -- the launch contents agree on the arguments
  have e0 : Cert.KernelIdeal.Gen.W0 m ρ c (Cert.KernelIdeal.main_arg0 : DevRef Cert.KernelIdeal.τ Cert.KernelIdeal.sig) = launchContents m' c (Cert.ReferenceIdeal.main_arg0 : DevRef Cert.ReferenceIdeal.τ Cert.ReferenceIdeal.sig) := h0.symm
  have e1 : Cert.KernelIdeal.Gen.W0 m ρ c (Cert.KernelIdeal.main_arg1 : DevRef Cert.KernelIdeal.τ Cert.KernelIdeal.sig) = launchContents m' c (Cert.ReferenceIdeal.main_arg1 : DevRef Cert.ReferenceIdeal.τ Cert.ReferenceIdeal.sig) := h1.symm
  have e2 : Cert.KernelIdeal.Gen.W0 m ρ c (Cert.KernelIdeal.main_arg2 : DevRef Cert.KernelIdeal.τ Cert.KernelIdeal.sig) = launchContents m' c (Cert.ReferenceIdeal.main_arg2 : DevRef Cert.ReferenceIdeal.τ Cert.ReferenceIdeal.sig) := h2.symm
  have e3 : Cert.KernelIdeal.Gen.W0 m ρ c (Cert.KernelIdeal.main_arg3 : DevRef Cert.KernelIdeal.τ Cert.KernelIdeal.sig) = launchContents m' c (Cert.ReferenceIdeal.main_arg3 : DevRef Cert.ReferenceIdeal.τ Cert.ReferenceIdeal.sig) := h3.symm
  have e4 : Cert.KernelIdeal.Gen.W0 m ρ c (Cert.KernelIdeal.main_arg4 : DevRef Cert.KernelIdeal.τ Cert.KernelIdeal.sig) = launchContents m' c (Cert.ReferenceIdeal.main_arg4 : DevRef Cert.ReferenceIdeal.τ Cert.ReferenceIdeal.sig) := h4.symm
  have e5 : Cert.KernelIdeal.Gen.W0 m ρ c (Cert.KernelIdeal.main_arg5 : DevRef Cert.KernelIdeal.τ Cert.KernelIdeal.sig) = launchContents m' c (Cert.ReferenceIdeal.main_arg5 : DevRef Cert.ReferenceIdeal.τ Cert.ReferenceIdeal.sig) := h5.symm
  -- the normalisation, first stretch
  have s3A : Cert.KernelIdeal.Gen.W1 m ρ c (Cert.KernelIdeal.main_v3 : DevRef Cert.KernelIdeal.τ Cert.KernelIdeal.sig) = RA m' c (Cert.ReferenceIdeal.main_v3 : DevRef Cert.ReferenceIdeal.τ Cert.ReferenceIdeal.sig) := preA_src (Cert.KernelIdeal.Gen.W0 m ρ c) (launchContents m' c) e1
  have s6A : Cert.KernelIdeal.Gen.W1 m ρ c (Cert.KernelIdeal.main_v6 : DevRef Cert.KernelIdeal.τ Cert.KernelIdeal.sig) = RA m' c (Cert.ReferenceIdeal.main_v6 : DevRef Cert.ReferenceIdeal.τ Cert.ReferenceIdeal.sig) := preA_dst (Cert.KernelIdeal.Gen.W0 m ρ c) (launchContents m' c) e1
  have s12A : Cert.KernelIdeal.Gen.W1 m ρ c (Cert.KernelIdeal.main_v12 : DevRef Cert.KernelIdeal.τ Cert.KernelIdeal.sig) = RA m' c (Cert.ReferenceIdeal.main_v12 : DevRef Cert.ReferenceIdeal.τ Cert.ReferenceIdeal.sig) := preA_pos (Cert.KernelIdeal.Gen.W0 m ρ c) (launchContents m' c) e1
  have s15A : Cert.KernelIdeal.Gen.W1 m ρ c (Cert.KernelIdeal.main_v15 : DevRef Cert.KernelIdeal.τ Cert.KernelIdeal.sig) = RA m' c (Cert.ReferenceIdeal.main_v15 : DevRef Cert.ReferenceIdeal.τ Cert.ReferenceIdeal.sig) := preA_rsq (Cert.KernelIdeal.Gen.W0 m ρ c) (launchContents m' c) e1
  have szA : Cert.KernelIdeal.Gen.W1 m ρ c (Cert.KernelIdeal.main_cst_3 : DevRef Cert.KernelIdeal.τ Cert.KernelIdeal.sig) = RA m' c (Cert.ReferenceIdeal.main_cst_3 : DevRef Cert.ReferenceIdeal.τ Cert.ReferenceIdeal.sig) := preA_zero (Cert.KernelIdeal.Gen.W0 m ρ c) (launchContents m' c)
  -- second stretch
  have s16B : Cert.KernelIdeal.Gen.W2 m ρ c (Cert.KernelIdeal.main_v16 : DevRef Cert.KernelIdeal.τ Cert.KernelIdeal.sig) = RB m' c (Cert.ReferenceIdeal.main_v16 : DevRef Cert.ReferenceIdeal.τ Cert.ReferenceIdeal.sig) := preB_dinv (Cert.KernelIdeal.Gen.W1 m ρ c) (RA m' c) s12A s15A szA
  have s3B : Cert.KernelIdeal.Gen.W2 m ρ c (Cert.KernelIdeal.main_v3 : DevRef Cert.KernelIdeal.τ Cert.KernelIdeal.sig) = RB m' c (Cert.ReferenceIdeal.main_v3 : DevRef Cert.ReferenceIdeal.τ Cert.ReferenceIdeal.sig) := (keepK_preB_v3 (Cert.KernelIdeal.Gen.W1 m ρ c)).trans (s3A.trans (keepR_preB_v3 (RA m' c)).symm)
  have s6B : Cert.KernelIdeal.Gen.W2 m ρ c (Cert.KernelIdeal.main_v6 : DevRef Cert.KernelIdeal.τ Cert.KernelIdeal.sig) = RB m' c (Cert.ReferenceIdeal.main_v6 : DevRef Cert.ReferenceIdeal.τ Cert.ReferenceIdeal.sig) := (keepK_preB_v6 (Cert.KernelIdeal.Gen.W1 m ρ c)).trans (s6A.trans (keepR_preB_v6 (RA m' c)).symm)
  -- third stretch: the weights
  have s31C : Cert.KernelIdeal.Gen.W3 m ρ c (Cert.KernelIdeal.main_v31 : DevRef Cert.KernelIdeal.τ Cert.KernelIdeal.sig) = RC m' c (Cert.ReferenceIdeal.main_v31 : DevRef Cert.ReferenceIdeal.τ Cert.ReferenceIdeal.sig) := preC_norm (Cert.KernelIdeal.Gen.W2 m ρ c) (RB m' c) s3B s6B s16B
  have s3C : Cert.KernelIdeal.Gen.W3 m ρ c (Cert.KernelIdeal.main_v3 : DevRef Cert.KernelIdeal.τ Cert.KernelIdeal.sig) = RC m' c (Cert.ReferenceIdeal.main_v3 : DevRef Cert.ReferenceIdeal.τ Cert.ReferenceIdeal.sig) := (keepK_preC_v3 (Cert.KernelIdeal.Gen.W2 m ρ c)).trans (s3B.trans (keepR_preC_v3 (RB m' c)).symm)
  have s6C : Cert.KernelIdeal.Gen.W3 m ρ c (Cert.KernelIdeal.main_v6 : DevRef Cert.KernelIdeal.τ Cert.KernelIdeal.sig) = RC m' c (Cert.ReferenceIdeal.main_v6 : DevRef Cert.ReferenceIdeal.τ Cert.ReferenceIdeal.sig) := (keepK_preC_v6 (Cert.KernelIdeal.Gen.W2 m ρ c)).trans (s6B.trans (keepR_preC_v6 (RB m' c)).symm)
  have a0C : Cert.KernelIdeal.Gen.W3 m ρ c (Cert.KernelIdeal.main_arg0 : DevRef Cert.KernelIdeal.τ Cert.KernelIdeal.sig) = RC m' c (Cert.ReferenceIdeal.main_arg0 : DevRef Cert.ReferenceIdeal.τ Cert.ReferenceIdeal.sig) := (keepK_pre_arg0 (Cert.KernelIdeal.Gen.W0 m ρ c)).trans (e0.trans (keepR_pre_arg0 (launchContents m' c)).symm)
  have a2C : Cert.KernelIdeal.Gen.W3 m ρ c (Cert.KernelIdeal.main_arg2 : DevRef Cert.KernelIdeal.τ Cert.KernelIdeal.sig) = RC m' c (Cert.ReferenceIdeal.main_arg2 : DevRef Cert.ReferenceIdeal.τ Cert.ReferenceIdeal.sig) := (keepK_pre_arg2 (Cert.KernelIdeal.Gen.W0 m ρ c)).trans (e2.trans (keepR_pre_arg2 (launchContents m' c)).symm)
  have a3C : Cert.KernelIdeal.Gen.W3 m ρ c (Cert.KernelIdeal.main_arg3 : DevRef Cert.KernelIdeal.τ Cert.KernelIdeal.sig) = RC m' c (Cert.ReferenceIdeal.main_arg3 : DevRef Cert.ReferenceIdeal.τ Cert.ReferenceIdeal.sig) := (keepK_pre_arg3 (Cert.KernelIdeal.Gen.W0 m ρ c)).trans (e3.trans (keepR_pre_arg3 (launchContents m' c)).symm)
  have a4C : Cert.KernelIdeal.Gen.W3 m ρ c (Cert.KernelIdeal.main_arg4 : DevRef Cert.KernelIdeal.τ Cert.KernelIdeal.sig) = RC m' c (Cert.ReferenceIdeal.main_arg4 : DevRef Cert.ReferenceIdeal.τ Cert.ReferenceIdeal.sig) := (keepK_pre_arg4 (Cert.KernelIdeal.Gen.W0 m ρ c)).trans (e4.trans (keepR_pre_arg4 (launchContents m' c)).symm)
  have a5C : Cert.KernelIdeal.Gen.W3 m ρ c (Cert.KernelIdeal.main_arg5 : DevRef Cert.KernelIdeal.τ Cert.KernelIdeal.sig) = RC m' c (Cert.ReferenceIdeal.main_arg5 : DevRef Cert.ReferenceIdeal.τ Cert.ReferenceIdeal.sig) := (keepK_pre_arg5 (Cert.KernelIdeal.Gen.W0 m ρ c)).trans (e5.trans (keepR_pre_arg5 (launchContents m' c)).symm)
  -- the first region: x · W1
  have d32 : Cert.KernelIdeal.Gen.W4 m ρ c (Cert.KernelIdeal.main_v32 : DevRef Cert.KernelIdeal.τ Cert.KernelIdeal.sig) = RD m' c (Cert.ReferenceIdeal.main_v32 : DevRef Cert.ReferenceIdeal.τ Cert.ReferenceIdeal.sig) := by
    refine (Cert.KernelIdeal.Gen.W4_arr m ρ c 2).trans ((Cert.KernelIdeal.Region0.final (Cert.KernelIdeal.Gen.V3 m ρ) c).trans (Eq.trans ?_ (dot1R (RC m' c)).symm))
    show dot1 (F := Ideal) (Cert.KernelIdeal.Gen.W3 m ρ c (Cert.KernelIdeal.main_arg0 : DevRef Cert.KernelIdeal.τ Cert.KernelIdeal.sig)) (Cert.KernelIdeal.Gen.W3 m ρ c (Cert.KernelIdeal.main_arg2 : DevRef Cert.KernelIdeal.τ Cert.KernelIdeal.sig)) = _
    rw [a0C, a2C]
  have k_v3_D : Cert.KernelIdeal.Gen.W4 m ρ c (Cert.KernelIdeal.main_v3 : DevRef Cert.KernelIdeal.τ Cert.KernelIdeal.sig) = RD m' c (Cert.ReferenceIdeal.main_v3 : DevRef Cert.ReferenceIdeal.τ Cert.ReferenceIdeal.sig) := (Cert.KernelIdeal.Gen.W4_of_ne m ρ c Cert.KernelIdeal.main_v3 (by decide)).trans (s3C.trans (keepR_dot1_v3 (RC m' c)).symm)
  have k_v6_D : Cert.KernelIdeal.Gen.W4 m ρ c (Cert.KernelIdeal.main_v6 : DevRef Cert.KernelIdeal.τ Cert.KernelIdeal.sig) = RD m' c (Cert.ReferenceIdeal.main_v6 : DevRef Cert.ReferenceIdeal.τ Cert.ReferenceIdeal.sig) := (Cert.KernelIdeal.Gen.W4_of_ne m ρ c Cert.KernelIdeal.main_v6 (by decide)).trans (s6C.trans (keepR_dot1_v6 (RC m' c)).symm)
  have k_v31_D : Cert.KernelIdeal.Gen.W4 m ρ c (Cert.KernelIdeal.main_v31 : DevRef Cert.KernelIdeal.τ Cert.KernelIdeal.sig) = RD m' c (Cert.ReferenceIdeal.main_v31 : DevRef Cert.ReferenceIdeal.τ Cert.ReferenceIdeal.sig) := (Cert.KernelIdeal.Gen.W4_of_ne m ρ c Cert.KernelIdeal.main_v31 (by decide)).trans (s31C.trans (keepR_dot1_v31 (RC m' c)).symm)
  have k_arg3_D : Cert.KernelIdeal.Gen.W4 m ρ c (Cert.KernelIdeal.main_arg3 : DevRef Cert.KernelIdeal.τ Cert.KernelIdeal.sig) = RD m' c (Cert.ReferenceIdeal.main_arg3 : DevRef Cert.ReferenceIdeal.τ Cert.ReferenceIdeal.sig) := (Cert.KernelIdeal.Gen.W4_of_ne m ρ c Cert.KernelIdeal.main_arg3 (by decide)).trans (a3C.trans (keepR_dot1_arg3 (RC m' c)).symm)
  have k_arg4_D : Cert.KernelIdeal.Gen.W4 m ρ c (Cert.KernelIdeal.main_arg4 : DevRef Cert.KernelIdeal.τ Cert.KernelIdeal.sig) = RD m' c (Cert.ReferenceIdeal.main_arg4 : DevRef Cert.ReferenceIdeal.τ Cert.ReferenceIdeal.sig) := (Cert.KernelIdeal.Gen.W4_of_ne m ρ c Cert.KernelIdeal.main_arg4 (by decide)).trans (a4C.trans (keepR_dot1_arg4 (RC m' c)).symm)
  have k_arg5_D : Cert.KernelIdeal.Gen.W4 m ρ c (Cert.KernelIdeal.main_arg5 : DevRef Cert.KernelIdeal.τ Cert.KernelIdeal.sig) = RD m' c (Cert.ReferenceIdeal.main_arg5 : DevRef Cert.ReferenceIdeal.τ Cert.ReferenceIdeal.sig) := (Cert.KernelIdeal.Gen.W4_of_ne m ρ c Cert.KernelIdeal.main_arg5 (by decide)).trans (a5C.trans (keepR_dot1_arg5 (RC m' c)).symm)
  -- the first aggregation
  have g48 : Cert.KernelIdeal.Gen.W5 m ρ c (Cert.KernelIdeal.main_v48 : DevRef Cert.KernelIdeal.τ Cert.KernelIdeal.sig) = RE m' c (Cert.ReferenceIdeal.main_v48 : DevRef Cert.ReferenceIdeal.τ Cert.ReferenceIdeal.sig) := agg1_sim (Cert.KernelIdeal.Gen.W4 m ρ c) (RD m' c) d32 k_v3_D k_v6_D k_v31_D k_arg3_D
  have k_v3_E : Cert.KernelIdeal.Gen.W5 m ρ c (Cert.KernelIdeal.main_v3 : DevRef Cert.KernelIdeal.τ Cert.KernelIdeal.sig) = RE m' c (Cert.ReferenceIdeal.main_v3 : DevRef Cert.ReferenceIdeal.τ Cert.ReferenceIdeal.sig) := (keepK_agg1_v3 (Cert.KernelIdeal.Gen.W4 m ρ c)).trans (k_v3_D.trans (keepR_agg1_v3 (RD m' c)).symm)
  have k_v6_E : Cert.KernelIdeal.Gen.W5 m ρ c (Cert.KernelIdeal.main_v6 : DevRef Cert.KernelIdeal.τ Cert.KernelIdeal.sig) = RE m' c (Cert.ReferenceIdeal.main_v6 : DevRef Cert.ReferenceIdeal.τ Cert.ReferenceIdeal.sig) := (keepK_agg1_v6 (Cert.KernelIdeal.Gen.W4 m ρ c)).trans (k_v6_D.trans (keepR_agg1_v6 (RD m' c)).symm)
  have k_v31_E : Cert.KernelIdeal.Gen.W5 m ρ c (Cert.KernelIdeal.main_v31 : DevRef Cert.KernelIdeal.τ Cert.KernelIdeal.sig) = RE m' c (Cert.ReferenceIdeal.main_v31 : DevRef Cert.ReferenceIdeal.τ Cert.ReferenceIdeal.sig) := (keepK_agg1_v31 (Cert.KernelIdeal.Gen.W4 m ρ c)).trans (k_v31_D.trans (keepR_agg1_v31 (RD m' c)).symm)
  have k_arg4_E : Cert.KernelIdeal.Gen.W5 m ρ c (Cert.KernelIdeal.main_arg4 : DevRef Cert.KernelIdeal.τ Cert.KernelIdeal.sig) = RE m' c (Cert.ReferenceIdeal.main_arg4 : DevRef Cert.ReferenceIdeal.τ Cert.ReferenceIdeal.sig) := (keepK_agg1_arg4 (Cert.KernelIdeal.Gen.W4 m ρ c)).trans (k_arg4_D.trans (keepR_agg1_arg4 (RD m' c)).symm)
  have k_arg5_E : Cert.KernelIdeal.Gen.W5 m ρ c (Cert.KernelIdeal.main_arg5 : DevRef Cert.KernelIdeal.τ Cert.KernelIdeal.sig) = RE m' c (Cert.ReferenceIdeal.main_arg5 : DevRef Cert.ReferenceIdeal.τ Cert.ReferenceIdeal.sig) := (keepK_agg1_arg5 (Cert.KernelIdeal.Gen.W4 m ρ c)).trans (k_arg5_D.trans (keepR_agg1_arg5 (RD m' c)).symm)
  -- the second region: elu, then · W2
  have e50 : Cert.KernelIdeal.Gen.W6 m ρ c (Cert.KernelIdeal.main_v49 : DevRef Cert.KernelIdeal.τ Cert.KernelIdeal.sig) = RG m' c (Cert.ReferenceIdeal.main_v50 : DevRef Cert.ReferenceIdeal.τ Cert.ReferenceIdeal.sig) := by
    refine (Cert.KernelIdeal.Gen.W6_arr m ρ c 2).trans ((Cert.KernelIdeal.Region1.final (Cert.KernelIdeal.Gen.V5 m ρ) c).trans (Eq.trans ?_ (dot2R (RF m' c)).symm))
    rw [show RF m' c (Cert.ReferenceIdeal.main_v49 : DevRef Cert.ReferenceIdeal.τ Cert.ReferenceIdeal.sig) = elu (F := Ideal) (RE m' c (Cert.ReferenceIdeal.main_v48 : DevRef Cert.ReferenceIdeal.τ Cert.ReferenceIdeal.sig)) from eluR (RE m' c),
      show RF m' c (Cert.ReferenceIdeal.main_arg4 : DevRef Cert.ReferenceIdeal.τ Cert.ReferenceIdeal.sig) = RE m' c (Cert.ReferenceIdeal.main_arg4 : DevRef Cert.ReferenceIdeal.τ Cert.ReferenceIdeal.sig) from keepR_elu_arg4 (RE m' c)]
    show dot2 (F := Ideal) (elu (F := Ideal) (Cert.KernelIdeal.Gen.W5 m ρ c (Cert.KernelIdeal.main_v48 : DevRef Cert.KernelIdeal.τ Cert.KernelIdeal.sig))) (Cert.KernelIdeal.Gen.W5 m ρ c (Cert.KernelIdeal.main_arg4 : DevRef Cert.KernelIdeal.τ Cert.KernelIdeal.sig)) = _
    rw [g48, k_arg4_E]
  have k_v3_G : Cert.KernelIdeal.Gen.W6 m ρ c (Cert.KernelIdeal.main_v3 : DevRef Cert.KernelIdeal.τ Cert.KernelIdeal.sig) = RG m' c (Cert.ReferenceIdeal.main_v3 : DevRef Cert.ReferenceIdeal.τ Cert.ReferenceIdeal.sig) := (Cert.KernelIdeal.Gen.W6_of_ne m ρ c Cert.KernelIdeal.main_v3 (by decide)).trans (k_v3_E.trans ((keepR_dot2_v3 (RF m' c)).trans (keepR_elu_v3 (RE m' c))).symm)
  have k_v6_G : Cert.KernelIdeal.Gen.W6 m ρ c (Cert.KernelIdeal.main_v6 : DevRef Cert.KernelIdeal.τ Cert.KernelIdeal.sig) = RG m' c (Cert.ReferenceIdeal.main_v6 : DevRef Cert.ReferenceIdeal.τ Cert.ReferenceIdeal.sig) := (Cert.KernelIdeal.Gen.W6_of_ne m ρ c Cert.KernelIdeal.main_v6 (by decide)).trans (k_v6_E.trans ((keepR_dot2_v6 (RF m' c)).trans (keepR_elu_v6 (RE m' c))).symm)
  have k_v31_G : Cert.KernelIdeal.Gen.W6 m ρ c (Cert.KernelIdeal.main_v31 : DevRef Cert.KernelIdeal.τ Cert.KernelIdeal.sig) = RG m' c (Cert.ReferenceIdeal.main_v31 : DevRef Cert.ReferenceIdeal.τ Cert.ReferenceIdeal.sig) := (Cert.KernelIdeal.Gen.W6_of_ne m ρ c Cert.KernelIdeal.main_v31 (by decide)).trans (k_v31_E.trans ((keepR_dot2_v31 (RF m' c)).trans (keepR_elu_v31 (RE m' c))).symm)
  have k_arg5_G : Cert.KernelIdeal.Gen.W6 m ρ c (Cert.KernelIdeal.main_arg5 : DevRef Cert.KernelIdeal.τ Cert.KernelIdeal.sig) = RG m' c (Cert.ReferenceIdeal.main_arg5 : DevRef Cert.ReferenceIdeal.τ Cert.ReferenceIdeal.sig) := (Cert.KernelIdeal.Gen.W6_of_ne m ρ c Cert.KernelIdeal.main_arg5 (by decide)).trans (k_arg5_E.trans ((keepR_dot2_arg5 (RF m' c)).trans (keepR_elu_arg5 (RE m' c))).symm)
  -- the second aggregation
  have g65 : Cert.KernelIdeal.Gen.W7 m ρ c (Cert.KernelIdeal.main_v65 : DevRef Cert.KernelIdeal.τ Cert.KernelIdeal.sig) = RH m' c (Cert.ReferenceIdeal.main_v66 : DevRef Cert.ReferenceIdeal.τ Cert.ReferenceIdeal.sig) := agg2_sim (Cert.KernelIdeal.Gen.W6 m ρ c) (RG m' c) e50 k_v3_G k_v6_G k_v31_G k_arg5_G
  -- the third region: log-softmax along the rows
  rw [after_ops]
  refine (Cert.KernelIdeal.Gen.W8_arr m ρ c 1).trans ((Cert.KernelIdeal.Region2.final' (Cert.KernelIdeal.Gen.V7 m ρ) c).trans
    ((Cert.KernelIdeal.Region2Ref.logSoftmax_eq _).symm.trans (Eq.trans ?_ (lsR (RH m' c)).symm)))
  show logSoftmax (F := Ideal) (Cert.KernelIdeal.Gen.W7 m ρ c (Cert.KernelIdeal.main_v65 : DevRef Cert.KernelIdeal.τ Cert.KernelIdeal.sig)) = _
  rw [g65]

end Cert.Bridge

end
-- ==== Proof.RefArgs.lean ====
/-
  None of the reference's 113 host operations writes an argument array: the fold of the operations, read at an
  argument's buffer, is what the buffer held at launch.
-/
import proofs.«125811_j66511863546567_1_alg».proof.Proof.RefRun

set_option maxRecDepth 16384

noncomputable section

namespace Cert.ReferenceIdeal.HandRun

open Cert.ReferenceIdeal Idealize.ShloMosaic Idealize.ShloMosaic.TcCoe Idealize.SL.Sem Idealize.ShloMosaic.StableHlo

variable {F : FTy → Type} [FloatOps F] (V : Valuation τ sig (Elt F))

theorem ops_arg0 : after ops V (main_arg0 : DevRef τ sig) = V (main_arg0 : DevRef τ sig) := by
  simp only [after_cons, after_nil]
  rfl
theorem ops_arg1 : after ops V (main_arg1 : DevRef τ sig) = V (main_arg1 : DevRef τ sig) := by
  simp only [after_cons, after_nil]
  rfl
theorem ops_arg2 : after ops V (main_arg2 : DevRef τ sig) = V (main_arg2 : DevRef τ sig) := by
  simp only [after_cons, after_nil]
  rfl
theorem ops_arg3 : after ops V (main_arg3 : DevRef τ sig) = V (main_arg3 : DevRef τ sig) := by
  simp only [after_cons, after_nil]
  rfl
theorem ops_arg4 : after ops V (main_arg4 : DevRef τ sig) = V (main_arg4 : DevRef τ sig) := by
  simp only [after_cons, after_nil]
  rfl
theorem ops_arg5 : after ops V (main_arg5 : DevRef τ sig) = V (main_arg5 : DevRef τ sig) := by
  simp only [after_cons, after_nil]
  rfl

end Cert.ReferenceIdeal.HandRun

end
-- ==== Proof.lean ====
/-
  A two-layer graph convolution with a log-softmax head, as three tiled kernels among host operations, against the
  same network written with host operations only.

  Both programs first normalise the graph on the host, by the same operations: self loops appended to the edge lists,
  the in-degree `deg` of every node, `dinv = deg^(-1/2)` (zero where the degree is not positive) and the per-edge weight
  `dinv[src] · dinv[dst]`. A layer is then a dense product followed by an aggregation: row `src` of the product,
  scaled by the edge's weight, is added into row `dst`, and the bias is added. The network is
  `log_softmax (agg (elu (agg (x · W1) + b1) · W2) + b2)`.

  The kernel program computes `x · W1` in blocks of 5000 rows, `elu (·) · W2` in blocks of 10000 rows (its `elu` is
  `y` above zero and `exp y − 1` otherwise, where the reference writes `1 · expm1` of the entry with the positive
  entries first set to zero: the same number on the extended reals), and the log-softmax of each row in blocks of
  10000 rows. At the ideal values a change of float format is the identity and a dense product is the plain sum over
  the contracted axis, so each of these three arrays is, index by index, the reference's operation of the whole input
  arrays (Region0, Region1, Region2 with Region2Ref); no step moves a factor across a sum or cancels anything, so the
  finiteness of the inputs is never used. The aggregations are the same host operations on both sides and are carried
  through as such (StagesPre, StagesKeep, StagesSim, StagesMain). The kernel program's run with its result named is
  KRun; the reference's run is RefRun. The ideal pass rewrote nothing, so `preserves` asks nothing.
-/
import proofs.«125811_j66511863546567_1_alg».proof.Defs
import proofs.«125811_j66511863546567_1_alg».proof.Proof.Gen.Kernel
import proofs.«125811_j66511863546567_1_alg».proof.Proof.Gen.Kernel.Skeleton
import proofs.«125811_j66511863546567_1_alg».proof.Proof.Gen.Kernel.Launch
import proofs.«125811_j66511863546567_1_alg».proof.Proof.Gen.Kernel.Points
import proofs.«125811_j66511863546567_1_alg».proof.Proof.Gen.Kernel.Frame
import proofs.«125811_j66511863546567_1_alg».proof.Proof.Gen.KernelIdeal
import proofs.«125811_j66511863546567_1_alg».proof.Proof.Gen.KernelIdeal.Skeleton
import proofs.«125811_j66511863546567_1_alg».proof.Proof.Gen.KernelIdeal.Launch
import proofs.«125811_j66511863546567_1_alg».proof.Proof.Gen.KernelIdeal.Points
import proofs.«125811_j66511863546567_1_alg».proof.Proof.Gen.KernelIdeal.Frame
import proofs.«125811_j66511863546567_1_alg».proof.Proof.Gen.ReferenceIdeal
import proofs.«125811_j66511863546567_1_alg».proof.Proof.Gen.Pre_finite_inputs
import proofs.«125811_j66511863546567_1_alg».proof.Proof.StagesMain
import proofs.«125811_j66511863546567_1_alg».proof.Proof.RefArgs
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program runs and leaves its arguments as launched: the generated frame of its three regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and none of its operations writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.HandRun.ops_arg0 _),
     (h c Cert.ReferenceIdeal.main_arg1).trans (Cert.ReferenceIdeal.HandRun.ops_arg1 _),
     (h c Cert.ReferenceIdeal.main_arg2).trans (Cert.ReferenceIdeal.HandRun.ops_arg2 _),
     (h c Cert.ReferenceIdeal.main_arg3).trans (Cert.ReferenceIdeal.HandRun.ops_arg3 _),
     (h c Cert.ReferenceIdeal.main_arg4).trans (Cert.ReferenceIdeal.HandRun.ops_arg4 _),
     (h c Cert.ReferenceIdeal.main_arg5).trans (Cert.ReferenceIdeal.HandRun.ops_arg5 _)⟩)
    (Cert.ReferenceIdeal.HandRun.run (F := Ideal) m ρ)

/-- The ideal pass rewrote no operation. -/
theorem preserves : Cert.preserves_Kernel_KernelIdeal := trivial

/-- From memories that agree on the arguments both idealized programs run, leave the arguments as launched, and end
    with the same result: what the kernel program's last region leaves in its output array. -/
theorem algebraic : Cert.algebraic_KernelIdeal_ReferenceIdeal := by
  intro m ρ m' ρ' _ hagree
  refine ⟨fun c => Cert.KernelIdeal.Gen.W8 m ρ c (Cert.KernelIdeal.main_v66 : DevRef Cert.KernelIdeal.τ Cert.KernelIdeal.sig),
    Cert.KernelIdeal.ValuedRun.run (F := Ideal) m ρ, ?_⟩
  refine (θ_run Cert.ReferenceIdeal.defs _ _).mono (fun r h c => ?_) (Cert.ReferenceIdeal.HandRun.run (F := Ideal) m' ρ')
  obtain ⟨h0, h1, h2, h3, h4, h5⟩ := hagree c
  exact ⟨(h c Cert.ReferenceIdeal.main_v67).trans (Cert.Bridge.result_eq m ρ m' c h0 h1 h2 h3 h4 h5).symm,
    (h c Cert.ReferenceIdeal.main_arg0).trans (Cert.ReferenceIdeal.HandRun.ops_arg0 _),
    (h c Cert.ReferenceIdeal.main_arg1).trans (Cert.ReferenceIdeal.HandRun.ops_arg1 _),
    (h c Cert.ReferenceIdeal.main_arg2).trans (Cert.ReferenceIdeal.HandRun.ops_arg2 _),
    (h c Cert.ReferenceIdeal.main_arg3).trans (Cert.ReferenceIdeal.HandRun.ops_arg3 _),
    (h c Cert.ReferenceIdeal.main_arg4).trans (Cert.ReferenceIdeal.HandRun.ops_arg4 _),
    (h c Cert.ReferenceIdeal.main_arg5).trans (Cert.ReferenceIdeal.HandRun.ops_arg5 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
